-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2 : Shape := ⟨2, ![4096, 2]⟩
abbrev S512x256 : Shape := ⟨2, ![512, 256]⟩
abbrev S256 : Shape := ⟨1, ![256]⟩
abbrev S2x256 : Shape := ⟨2, ![2, 256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256x1 .f32) (main_arg15 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S256 .f32) (main_arg12 : FVec F S256x256 .f32) (main_arg13 : FVec F S256 .f32) (main_arg14 : FVec F S256x1 .f32) (main_arg15 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S2x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S2x256 .f32 := Host.absf main_arg8
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S2x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x512 .f32) (main_arg1 : FVec F S4096x2 .f32) (main_arg2 : FVec F S512x256 .f32) (main_arg3 : FVec F S256 .f32) (main_arg4 : FVec F S512x256 .f32) (main_arg5 : FVec F S256 .f32) (main_arg6 : FVec F S512x256 .f32) (main_arg7 : FVec F S256 .f32) (main_arg8 : FVec F S2x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x512 : Shape := ⟨2, ![4096, 512]⟩
abbrev S4096x2 : Shape := ⟨2, ![4096, 2]⟩
abbrev S512x256 : Shape := ⟨2, ![512, 256]⟩
abbrev S256 : Shape := ⟨1, ![256]⟩
abbrev S2x256 : Shape := ⟨2, ![2, 256]⟩
abbrev S256x256 : Shape := ⟨2, ![256, 256]⟩
abbrev S256x1 : Shape := ⟨2, ![256, 1]⟩
abbrev S1 : Shape := ⟨1, ![1]⟩
abbrev S4096x256 : Shape := ⟨2, ![4096, 256]⟩
abbrev S1x256 : Shape := ⟨2, ![1, 256]⟩
abbrev S_ : Shape := ⟨0, ![]⟩
abbrev S4096x1 : Shape := ⟨2, ![4096, 1]⟩
abbrev S1x1 : Shape := ⟨2, ![1, 1]⟩
abbrev S4096 : Shape := ⟨1, ![4096]⟩
abbrev S1x4096 : Shape := ⟨2, ![1, 4096]⟩
abbrev S4096x4096 : Shape := ⟨2, ![4096, 4096]⟩
abbrev S256x2 : Shape := ⟨2, ![256, 2]⟩
abbrev S256x4096 : Shape := ⟨2, ![256, 4096]⟩
abbrev S256x512 : Shape := ⟨2, ![256, 512]⟩

abbrev nBuf : Space → Nat
  | .hbm => 77
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x2, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S2x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S4096x256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S1x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S1x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | .hbm, ⟨44, _⟩ => ⟨S4096x1, .f32⟩
  | .hbm, ⟨45, _⟩ => ⟨S1x1, .f32⟩
  | .hbm, ⟨46, _⟩ => ⟨S4096x1, .f32⟩
  | .hbm, ⟨47, _⟩ => ⟨S4096x1, .f32⟩
  | .hbm, ⟨48, _⟩ => ⟨S4096, .f32⟩
  | .hbm, ⟨49, _⟩ => ⟨S4096x512, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x512, .f32⟩
  | .hbm, ⟨58, _⟩ => ⟨S4096x512, .f32⟩
  | .hbm, ⟨59, _⟩ => ⟨S4096x2, .f32⟩
  | .hbm, ⟨60, _⟩ => ⟨S_, .f32⟩
  | .hbm, ⟨61, _⟩ => ⟨S4096, .f32⟩
  | .hbm, ⟨62, _⟩ => ⟨S4096x256, .bf16⟩
  | .hbm, ⟨63, _⟩ => ⟨S4096x256, .bf16⟩
  | .hbm, ⟨64, _⟩ => ⟨S4096x256, .bf16⟩
  | .hbm, ⟨65, _⟩ => ⟨S4096x512, .bf16⟩
  | .hbm, ⟨66, _⟩ => ⟨S4096x1, .f32⟩
  | .hbm, ⟨67, _⟩ => ⟨S4096, .f32⟩
  | .hbm, ⟨68, _⟩ => ⟨S1x4096, .f32⟩
  | .hbm, ⟨69, _⟩ => ⟨S4096x1, .f32⟩
  | .hbm, ⟨70, _⟩ => ⟨S4096, .f32⟩
  | .hbm, ⟨71, _⟩ => ⟨S1x4096, .f32⟩
  | .hbm, ⟨72, _⟩ => ⟨S1x4096, .f32⟩
  | .hbm, ⟨73, _⟩ => ⟨S1x4096, .f32⟩
  | .hbm, ⟨74, _⟩ => ⟨S4096x1, .f32⟩
  | .hbm, ⟨75, _⟩ => ⟨S4096x4096, .f32⟩
  | .hbm, ⟨76, _⟩ => ⟨S4096x256, .f32⟩
  | .local _ .vmem, ⟨0, _⟩ => ⟨S256x256, .bf16⟩
  | .local _ .vmem, ⟨1, _⟩ => ⟨S256x256, .bf16⟩
  | .local _ .vmem, ⟨2, _⟩ => ⟨S256x2, .f32⟩
  | .local _ .vmem, ⟨3, _⟩ => ⟨S256x2, .f32⟩
  | .local _ .vmem, ⟨4, _⟩ => ⟨S256x1, .f32⟩
  | .local _ .vmem, ⟨5, _⟩ => ⟨S256x1, .f32⟩
  | .local _ .vmem, ⟨6, _⟩ => ⟨S4096x256, .bf16⟩
  | .local _ .vmem, ⟨7, _⟩ => ⟨S4096x256, .bf16⟩
  | .local _ .vmem, ⟨8, _⟩ => ⟨S4096x512, .bf16⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S256x4096, .f32⟩
  | .local _ .vmem, ⟨14, _⟩ => ⟨S256x4096, .f32⟩
  | .local _ .vmem, ⟨15, _⟩ => ⟨S256x256, .f32⟩
  | .local _ .vmem, ⟨16, _⟩ => ⟨S256x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51_0 : Ref sig .tc := ⟨.hbm, 75, rfl⟩
abbrev main_v51_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v9 : Index := Scalar.indexCast v1
  let c0_4 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S4096x2_S4096_d1 : S4096x2.ReducesTo [1] S4096
  bitsLt_bf16_f32 : FTy.bits .bf16 < FTy.bits .f32
  slices_S4096x2_S4096x1_0_0 : S4096x2.Slices ![0, 0] S4096x1
  shapeCasts_S4096_S1x4096 : S4096.ShapeCasts S1x4096
  slices_S4096x2_S4096x1_0_1 : S4096x2.Slices ![0, 1] S4096x1
  shapeCasts_S4096_S4096x1 : S4096.ShapeCasts S4096x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x2_S256x2_0_0 : ∀ a, (![0, 0] : Fin 2 → Nat) a + S256x2.size a ≤ S256x2.size a
  h_S256x2 : 0 < S256x2.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S256x2_o0_0_S256x1 : S256x2.Slices ![0, 0] S256x1
  broadcasts_S256x1_S256x4096 : S256x1.Broadcasts S256x4096
  broadcasts_S1x4096_S256x4096 : S1x4096.Broadcasts S256x4096
  slices_S256x2_o0_1_S256x1 : S256x2.Slices ![0, 1] S256x1
  reduces_S256x2_S256 : S256x2.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x4096_S256 : S256x4096.Reduces [1] S256
  inb_S256x4096_S256x4096_0_0 : ∀ a, (![0, 0] : Fin 2 → Nat) a + S256x4096.size a ≤ S256x4096.size a
  h_S256x4096 : 0 < S256x4096.numel
  dot_S4096x512_S512x256_S4096x256_1_0_0_1_n_n_wf : DotDims.WF S4096x512 S512x256 S4096x256 [1] [0] [0] [1] [] []
  dot_S4096x2_S2x256_S4096x256_1_0_0_1_n_n_wf : DotDims.WF S4096x2 S2x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S256x256_S4096x256_S256x4096_1_1_0_0_n_n_wf : DotDims.WF S256x256 S4096x256 S256x4096 [1] [1] [0] [0] [] []
  dot_S256x512_S4096x512_S256x4096_1_1_0_0_n_n_wf : DotDims.WF S256x512 S4096x512 S256x4096 [1] [1] [0] [0] [] []
  dot_S256x4096_S4096x256_S256x256_1_0_0_1_n_n_wf : DotDims.WF S256x4096 S4096x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S4096x2.size a
  hwx0_1 : ∀ i : grid0.Coords, EltTy.bits .f32 = 32 ∨ (Rect.block (s := S4096x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .bf16 = 32 ∨ (Rect.block (s := S4096x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .bf16 = 32 ∨ (Rect.block (s := S4096x256) S4096x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S4096x512.size a
  hwx0_5 : ∀ i : grid0.Coords, EltTy.bits .bf16 = 32 ∨ (Rect.block (s := S4096x512) S4096x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x4096.size a ≤ S4096x4096.size a
  hwx0_10 : ∀ i : grid0.Coords, EltTy.bits .f32 = 32 ∨ (Rect.block (s := S4096x4096) S256x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S4096x256.size a
  hwx0_11 : ∀ i : grid0.Coords, EltTy.bits .f32 = 32 ∨ (Rect.block (s := S4096x256) S256x256.size (cc0_transform_11 i) (hinb0_11 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x2_S2x256_S4096x256_1_0_0_1_n_n : DotDims S4096x2 S2x256 S4096x256 where
  lhsContracting := [1]
  rhsContracting := [0]
  lhsNonContracting := [0]
  rhsNonContracting := [1]
  lhsBatch := []
  rhsBatch := []
  wf := dot_S4096x2_S2x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v38) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S4096x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S4096x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v51_0) S256x4096.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v51_1) S256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x2 : Shape := ⟨2, ![4096, 2]⟩
abbrev S512x256 : Shape := ⟨2, ![512, 256]⟩
abbrev S256 : Shape := ⟨1, ![256]⟩
abbrev S2x256 : Shape := ⟨2, ![2, 256]⟩
abbrev S256x256 : Shape := ⟨2, ![256, 256]⟩
abbrev S256x1 : Shape := ⟨2, ![256, 1]⟩
abbrev S1 : Shape := ⟨1, ![1]⟩
abbrev S4096x256 : Shape := ⟨2, ![4096, 256]⟩
abbrev S1x256 : Shape := ⟨2, ![1, 256]⟩
abbrev S_ : Shape := ⟨0, ![]⟩
abbrev S4096x1 : Shape := ⟨2, ![4096, 1]⟩
abbrev S1x1 : Shape := ⟨2, ![1, 1]⟩
abbrev S4096 : Shape := ⟨1, ![4096]⟩
abbrev S1x4096 : Shape := ⟨2, ![1, 4096]⟩
abbrev S4096x4096 : Shape := ⟨2, ![4096, 4096]⟩
abbrev S2x4096 : Shape := ⟨2, ![2, 4096]⟩
abbrev S512x4096 : Shape := ⟨2, ![512, 4096]⟩
abbrev S256x4096 : Shape := ⟨2, ![256, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S2x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S4096x256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S1x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S1x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | .hbm, ⟨44, _⟩ => ⟨S4096x1, .f32⟩
  | .hbm, ⟨45, _⟩ => ⟨S1x1, .f32⟩
  | .hbm, ⟨46, _⟩ => ⟨S4096x1, .f32⟩
  | .hbm, ⟨47, _⟩ => ⟨S4096x1, .f32⟩
  | .hbm, ⟨48, _⟩ => ⟨S4096, .f32⟩
  | .hbm, ⟨49, _⟩ => ⟨S4096x1, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x2, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S2x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x512, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x512, .f32⟩
  | .hbm, ⟨86, _⟩ => ⟨S4096x512, .f32⟩
  | .hbm, ⟨87, _⟩ => ⟨S512x4096, .f32⟩
  | .hbm, ⟨88, _⟩ => ⟨S4096x4096, .f32⟩
  | .hbm, ⟨89, _⟩ => ⟨S256x4096, .f32⟩
  | .hbm, ⟨90, _⟩ => ⟨S4096x4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x4096, .f32⟩
  | .hbm, ⟨101, _⟩ => ⟨S4096x4096, .f32⟩
  | .hbm, ⟨102, _⟩ => ⟨S_, .f32⟩
  | .hbm, ⟨103, _⟩ => ⟨S4096, .f32⟩
  | .hbm, ⟨104, _⟩ => ⟨S_, .f32⟩
  | .hbm, ⟨105, _⟩ => ⟨S4096, .f32⟩
  | .hbm, ⟨106, _⟩ => ⟨S4096, .f32⟩
  | .hbm, ⟨107, _⟩ => ⟨S4096x1, .f32⟩
  | .hbm, ⟨108, _⟩ => ⟨S4096x4096, .f32⟩
  | .hbm, ⟨109, _⟩ => ⟨S4096x4096, .f32⟩
  | .hbm, ⟨110, _⟩ => ⟨S4096x4096, .f32⟩
  | .hbm, ⟨111, _⟩ => ⟨S_, .f32⟩
  | .hbm, ⟨112, _⟩ => ⟨S4096, .f32⟩
  | .hbm, ⟨113, _⟩ => ⟨S4096x1, .f32⟩
  | .hbm, ⟨114, _⟩ => ⟨S4096x4096, .f32⟩
  | .hbm, ⟨115, _⟩ => ⟨S4096x4096, .f32⟩
  | .hbm, ⟨116, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_1 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_2 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_v0 : Ref sig .tc := ⟨.hbm, 77, rfl⟩
abbrev main_call1_cst : Ref sig .tc := ⟨.hbm, 78, rfl⟩
abbrev main_call1_v1 : Ref sig .tc := ⟨.hbm, 79, rfl⟩
abbrev main_call1_v2 : Ref sig .tc := ⟨.hbm, 80, rfl⟩
abbrev main_v55 : Ref sig .tc := ⟨.hbm, 81, rfl⟩
abbrev main_cst_3 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_4 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_5 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_6 : Ref sig .tc := ⟨.hbm, 102, rfl⟩
abbrev main_v73 : Ref sig .tc := ⟨.hbm, 103, rfl⟩
abbrev main_cst_7 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x2_S4096_d1 : S4096x2.ReducesTo [1] S4096
  h_S_ : 0 < S_.numel
  transposes_S4096x2_S2x4096_1_0 : S4096x2.Transposes [1, 0] S2x4096
  bcast_S_S4096x4096 : S_.BroadcastsInDim S4096x4096 (![] : Fin 0 → Fin S4096x4096.rank)
  reducesTo_S4096x512_S4096_d1 : S4096x512.ReducesTo [1] S4096
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  transposes_S4096x256_S256x4096_1_0 : S4096x256.Transposes [1, 0] S256x4096
  reducesTo_S4096x4096_S4096_d1 : S4096x4096.ReducesTo [1] S4096
  bcast_S_S4096 : S_.BroadcastsInDim S4096 (![] : Fin 0 → Fin S4096.rank)
  dot_S4096x512_S512x256_S4096x256_1_0_0_1_n_n_wf : DotDims.WF S4096x512 S512x256 S4096x256 [1] [0] [0] [1] [] []
  dot_S4096x2_S2x256_S4096x256_1_0_0_1_n_n_wf : DotDims.WF S4096x2 S2x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S4096x2_S2x4096_S4096x4096_1_0_0_1_n_n_wf : DotDims.WF S4096x2 S2x4096 S4096x4096 [1] [0] [0] [1] [] []
  dot_S4096x512_S512x4096_S4096x4096_1_0_0_1_n_n_wf : DotDims.WF S4096x512 S512x4096 S4096x4096 [1] [0] [0] [1] [] []
  dot_S4096x256_S256x4096_S4096x4096_1_0_0_1_n_n_wf : DotDims.WF S4096x256 S256x4096 S4096x4096 [1] [0] [0] [1] [] []
  dot_S4096x4096_S4096x256_S4096x256_1_0_0_1_n_n_wf : DotDims.WF S4096x4096 S4096x256 S4096x256 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x2_S2x256_S4096x256_1_0_0_1_n_n : DotDims S4096x2 S2x256 S4096x256 where
  lhsContracting := [1]
  rhsContracting := [0]
  lhsNonContracting := [0]
  rhsNonContracting := [1]
  lhsBatch := []
  rhsBatch := []
  wf := dot_S4096x2_S2x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x2_S2x4096_S4096x4096_1_0_0_1_n_n : DotDims S4096x2 S2x4096 S4096x4096 where
  lhsContracting := [1]
  rhsContracting := [0]
  lhsNonContracting := [0]
  rhsNonContracting := [1]
  lhsBatch := []
  rhsBatch := []
  wf := dot_S4096x2_S2x4096_S4096x4096_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.KernelBody.lean ====
/-
  What the body leaves in its two output tiles, as pure terms of the blocks it was given.

  The body loads each of its ten input blocks whole — and, a second time, the query tile's own 256 rows of the
  resident normalised-expression block, at the row offset 256·i of grid point `i` — and stores each output tile
  whole, once. So the attention tile is the softmax term of the loaded blocks and the updated tile is its product
  with the value block; both for every float instance.
-/
import proofs.«120327_j83880711291224_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic
open Idealize.SL.Sem

variable {F : FTy → Type} [FloatOps F]

/-- The zero offsets of a whole-block load or store. -/
theorem zero_offsets : (![0, 0] : Fin 2 → Nat) = fun _ => 0 := funext fun a => by fin_cases a <;> rfl

/-- The query tile's own rows of the resident expression block: rows `256·i … 256·i + 255`. -/
def tileRows (i : grid0.Coords) (x5 : Vec F S4096x512 .bf16) : Vec F S256x512 .bf16 :=
  View.ld x5 (Rect.unit (s := S4096x512) (k0_off1 i) S256x512.size (k0_off1_inb i))

/-- The attention tile after the body: the softmax term of the loaded blocks. -/
theorem attn_stored (c : Dev nD) (i : grid0.Coords) (arg1 : Memref sig .tc .vmem S256x256 .bf16) (harg1 : arg1.IsWhole) (arg2 : Memref sig .tc .vmem S256x2 .f32) (harg2 : arg2.IsWhole) (arg3 : Memref sig .tc .vmem S256x1 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x512 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .f32) (harg11 : arg11.IsWhole) (arg12 : Memref sig .tc .vmem S256x256 .f32) (harg12 : arg12.IsWhole) (x0 : Vec F S256x256 .bf16) (x1 : Vec F S256x2 .f32) (x2 : Vec F S256x1 .f32) (x3 : Vec F S4096x256 .bf16) (x4 : Vec F S4096x256 .bf16) (x5 : Vec F S4096x512 .bf16) (x6 : Vec F S1x4096 .f32) (x7 : Vec F S1x4096 .f32) (x8 : Vec F S1x4096 .f32) (x9 : Vec F S1x4096 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = k0_pay1 (k0_pay3 x0 x3) (k0_pay4 (tileRows i x5) x5) (k0_pay5 x1 x6 x7) (k0_pay6 x1 x8) k0_pay7 x2 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  rw [View.canon_unit_zero zero_offsets]
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S256x256) zero_offsets, View.ld_unit_zero (S := S256x2) zero_offsets,
    View.ld_unit_zero (S := S256x1) zero_offsets, View.ld_unit_zero (S := S4096x256) zero_offsets,
    View.ld_unit_zero (S := S4096x512) zero_offsets, View.ld_unit_zero (S := S1x4096) zero_offsets]
  rfl

/-- The updated tile after the body: the attention tile times the value block. -/
theorem upd_stored (c : Dev nD) (i : grid0.Coords) (arg1 : Memref sig .tc .vmem S256x256 .bf16) (harg1 : arg1.IsWhole) (arg2 : Memref sig .tc .vmem S256x2 .f32) (harg2 : arg2.IsWhole) (arg3 : Memref sig .tc .vmem S256x1 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x512 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .f32) (harg11 : arg11.IsWhole) (arg12 : Memref sig .tc .vmem S256x256 .f32) (harg12 : arg12.IsWhole) (x0 : Vec F S256x256 .bf16) (x1 : Vec F S256x2 .f32) (x2 : Vec F S256x1 .f32) (x3 : Vec F S4096x256 .bf16) (x4 : Vec F S4096x256 .bf16) (x5 : Vec F S4096x512 .bf16) (x6 : Vec F S1x4096 .f32) (x7 : Vec F S1x4096 .f32) (x8 : Vec F S1x4096 .f32) (x9 : Vec F S1x4096 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = k0_pay2 (k0_pay3 x0 x3) (k0_pay4 (tileRows i x5) x5) (k0_pay5 x1 x6 x7) (k0_pay6 x1 x8) k0_pay7 x2 x9 x4 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  rw [View.canon_unit_zero zero_offsets]
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S256x256) zero_offsets, View.ld_unit_zero (S := S256x2) zero_offsets,
    View.ld_unit_zero (S := S256x1) zero_offsets, View.ld_unit_zero (S := S4096x256) zero_offsets,
    View.ld_unit_zero (S := S4096x512) zero_offsets, View.ld_unit_zero (S := S1x4096) zero_offsets]
  rfl

end Cert.KernelIdeal.Body

end
-- ==== Proof.Spec.lean ====
/-
  The attention row that the kernel and the reference both compute, on the extended reals.

  For one query row — its 256 projected features `q`, its 512 normalised expression features `xr`, its two
  coordinates `a`, its scalar spatial feature `fr` — and the 4096 keys (their projections `Kk`, normalised
  expressions `Xk`, coordinates `p0`, `p1`, squared norms `sqk`, spatial features `fk`), the logit against key `j` is

      (Σ_k (q k · 1/16) · Kk j k  +  Σ_k xr k · Xk j k)  +  exp(-½ · max(|a|² + sqk j − 2·(a·p_j), 0))  +  tanh(fr − fk j),

  the attention row is its softmax taken with ONE shift by the row maximum, and the updated row is the
  attention-weighted sum of the value rows. The float words are kept as the words both programs spell.
-/
import Idealize.ShloMosaic.PureOps.Ideal
import Idealize.ShloMosaic.Lib.ValueIdx

noncomputable section

open scoped BigOperators

namespace Cert.AttnSpec

open Idealize.ShloMosaic Idealize.ShloMosaic.ValueIdx

/-! ## One query row against all keys -/

section Row

variable (q : Fin 256 → EReal) (xr : Fin 512 → EReal) (a : Fin 2 → EReal) (fr : EReal)
  (Kk : Fin 4096 → Fin 256 → EReal) (Xk : Fin 4096 → Fin 512 → EReal) (p0 p1 sqk fk : Fin 4096 → EReal)

/-- The query–key inner product with the scale 1/16 folded into the query's features. -/
def scaledDot (j : Fin 4096) : EReal := ∑ k : Fin 256, (q k * Ideal.ofBits .bf16 0x3D80#16) * Kk j k

/-- The inner product of the two normalised expression rows. -/
def cosine (j : Fin 4096) : EReal := ∑ k : Fin 512, xr k * Xk j k

/-- The squared distance between the query's position and key `j`'s, clamped at zero. -/
def sqDist (j : Fin 4096) : EReal :=
  max (((∑ k : Fin 2, a k * a k) + sqk j) - Ideal.ofBits .f32 0x40000000#32 * (a 0 * p0 j + a 1 * p1 j))
    (Ideal.ofBits .f32 0x00000000#32)

/-- The Gaussian spatial weight `exp(-½ d²)`. -/
def gauss (j : Fin 4096) : EReal := Ideal.exp (Ideal.ofBits .f32 0xBF000000#32 * sqDist a p0 p1 sqk j)

/-- The pairwise spatial bias `tanh(f_i − f_j)`. -/
def bias (j : Fin 4096) : EReal := Ideal.tanh (fr - fk j)

/-- The logit of the query row against key `j`. -/
def logitRow (j : Fin 4096) : EReal :=
  ((scaledDot q Kk j + cosine xr Xk j) + gauss a p0 p1 sqk j) + bias fr fk j

end Row

/-! ## The softmax of a row of logits, and the weighted sum of the value rows -/

/-- The row's maximum, folded from `-∞`. -/
def rowMax (L : Fin 4096 → EReal) : EReal :=
  (Finset.univ : Finset (Fin 4096)).fold max (Ideal.ofBits .f32 0xFF800000#32) L

/-- `exp` of the logit shifted by the row maximum. -/
def expRow (L : Fin 4096 → EReal) (j : Fin 4096) : EReal := Ideal.exp (L j - rowMax L)

/-- The softmax weight of key `j`. -/
def softRow (L : Fin 4096 → EReal) (j : Fin 4096) : EReal := Ideal.div (expRow L j) (∑ j' : Fin 4096, expRow L j')

/-- Feature `k` of the attention-weighted sum of the value rows. -/
def updRow (L : Fin 4096 → EReal) (Vv : Fin 4096 → Fin 256 → EReal) (k : Fin 256) : EReal :=
  ∑ j : Fin 4096, softRow L j * Vv j k

/-! ## The two result arrays as functions of the projected arrays -/

section Arrays

variable (Q K : (⟨2, ![4096, 256]⟩ : Shape).Idx → EReal) (X : (⟨2, ![4096, 512]⟩ : Shape).Idx → EReal)
  (P : (⟨2, ![4096, 2]⟩ : Shape).Idx → EReal) (f sq : (⟨1, ![4096]⟩ : Shape).Idx → EReal)
  (Vv : (⟨2, ![4096, 256]⟩ : Shape).Idx → EReal)

/-- Row `i`'s logits, from the arrays: queries `Q`, keys `K`, normalised expressions `X`, positions `P`, the
    spatial feature `f` and the squared position norms `sq`. -/
def logits (i : Fin 4096) : Fin 4096 → EReal :=
  logitRow (fun k => Q (ix2 i k)) (fun k => X (ix2 i k)) (fun k => P (ix2 i k)) (f (ix1 i))
    (fun j k => K (ix2 j k)) (fun j k => X (ix2 j k)) (fun j => P (ix2 j 0)) (fun j => P (ix2 j 1))
    (fun j => sq (ix1 j)) (fun j => f (ix1 j))

/-- The attention weights, [4096, 4096]. -/
def attnArr : (⟨2, ![4096, 4096]⟩ : Shape).Idx → EReal :=
  fun i => softRow (logits Q K X P f sq (i 0)) (i 1)

/-- The updated expression, [4096, 256]. -/
def updArr : (⟨2, ![4096, 256]⟩ : Shape).Idx → EReal :=
  fun i => updRow (logits Q K X P f sq (i 0)) (fun j k => Vv (ix2 j k)) (i 1)

end Arrays

end Cert.AttnSpec

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.KernelEntry.lean ====
/-
  One entry of what the kernel's body stores, at the ideal values.

  The body's two stored values are pure terms of the blocks it loads: the query tile's projections `x0`, positions
  `x1` and spatial feature column `x2`; all keys' projections `x3`, values `x4` and normalised expressions `x5`
  (with `x5r` the query tile's own 256 rows of it); and the keys' two coordinate rows `x6`, `x7`, squared norms `x8`
  and spatial features `x9`. Entry `(p, j)` of the first is the softmax weight of key `j` in the logits of the tile's
  row `p`; entry `(p, k)` of the second is feature `k` of that row's weighted sum of the value rows.
-/
import proofs.«120327_j83880711291224_2_alg».proof.Proof.Gen.KernelIdeal.Skeleton
import proofs.«120327_j83880711291224_2_alg».proof.Proof.Spec
import proofs.«120327_j83880711291224_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The logits of the query tile's row `p` against every key, from the loaded blocks. -/
def tileLogits (x0 : Vec Ideal S256x256 .bf16) (x1 : Vec Ideal S256x2 .f32) (x2 : Vec Ideal S256x1 .f32)
    (x3 : Vec Ideal S4096x256 .bf16) (x5r : Vec Ideal S256x512 .bf16) (x5 : Vec Ideal S4096x512 .bf16)
    (x6 x7 x8 x9 : Vec Ideal S1x4096 .f32) (p : Fin 256) : Fin 4096 → EReal :=
  Cert.AttnSpec.logitRow (fun k => x0 (ix2 p k)) (fun k => x5r (ix2 p k)) (fun k => x1 (ix2 p k)) (x2 (ix2 p (0 : Fin 1)))
    (fun j k => x3 (ix2 j k)) (fun j k => x5 (ix2 j k)) (fun j => x6 (ix2 (0 : Fin 1) j)) (fun j => x7 (ix2 (0 : Fin 1) j))
    (fun j => x8 (ix2 (0 : Fin 1) j)) (fun j => x9 (ix2 (0 : Fin 1) j))

/-! ## The three products read at an entry

Each product contracts one axis; its entry is the sum, over that axis's coordinate, of the operands' products. -/

/-- On its row axis the left operand of the query–key product reads the entry's row. -/
theorem qk_lhs0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide),
    dif_pos (show (0 : Fin S256x256.rank) ∈ dot_S256x256_S4096x256_S256x4096_1_1_0_0_n_n.lhsNonContracting by decide)]
  rfl

/-- On its row axis the right operand of the query–key product reads the entry's column. -/
theorem qk_rhs0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide),
    dif_pos (show (0 : Fin S4096x256.rank) ∈ dot_S256x256_S4096x256_S256x4096_1_1_0_0_n_n.rhsNonContracting by decide)]
  rfl

/-- The query–key product at `(p, j)`: the scaled inner product of the tile's row `p` of projections with key `j`'s. -/
theorem pay3_apply (x0 : Vec Ideal S256x256 .bf16) (x3 : Vec Ideal S4096x256 .bf16) (p : Fin 256) (j : Fin 4096) :
    k0_pay3 (F := Ideal) x0 x3 (ix2 p j)
      = Cert.AttnSpec.scaledDot (fun k => x0 (ix2 p k)) (fun j k => x3 (ix2 j k)) j := by
  unfold k0_pay3
  simp only [shapeCast_self]
  refine (Ideal.matmul_constant_zero_apply (φ₁ := .bf16) (φ₂ := .bf16) dot_S256x256_S4096x256_S256x4096_1_1_0_0_n_n none _ _ (ix2 p j)).trans ?_
  unfold Cert.AttnSpec.scaledDot
  rw [← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 p j) ((contrEquiv1 dot_S256x256_S4096x256_S256x4096_1_1_0_0_n_n 256 rfl rfl).symm k) = ix2 p k :=
    funext fun a => Fin.ext (by
      match a with
      | ⟨0, _⟩ => exact qk_lhs0 _ _
      | ⟨1, _⟩ => exact (dot_S256x256_S4096x256_S256x4096_1_1_0_0_n_n.lhsIdx_val_of_single rfl _ _).trans hk)
  have er : dot_S256x256_S4096x256_S256x4096_1_1_0_0_n_n.rhsIdx (ix2 p j) ((contrEquiv1 dot_S256x256_S4096x256_S256x4096_1_1_0_0_n_n 256 rfl rfl).symm k) = ix2 j k :=
    funext fun a => Fin.ext (by
      match a with
      | ⟨0, _⟩ => exact qk_rhs0 _ _
      | ⟨1, _⟩ => exact (dot_S256x256_S4096x256_S256x4096_1_1_0_0_n_n.rhsIdx_val_of_single rfl _ _).trans hk)
  rw [el, er]
  rfl

/-- On its row axis the left operand of the normalised expressions' product reads the entry's row. -/
theorem xx_lhs0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide),
    dif_pos (show (0 : Fin S256x512.rank) ∈ dot_S256x512_S4096x512_S256x4096_1_1_0_0_n_n.lhsNonContracting by decide)]
  rfl

/-- On its row axis the right operand of the normalised expressions' product reads the entry's column. -/
theorem xx_rhs0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide),
    dif_pos (show (0 : Fin S4096x512.rank) ∈ dot_S256x512_S4096x512_S256x4096_1_1_0_0_n_n.rhsNonContracting by decide)]
  rfl

/-- The product of the normalised expressions at `(p, j)`: the inner product of the tile's row `p` with key `j`'s row. -/
theorem pay4_apply (x5r : Vec Ideal S256x512 .bf16) (x5 : Vec Ideal S4096x512 .bf16) (p : Fin 256) (j : Fin 4096) :
    k0_pay4 (F := Ideal) x5r x5 (ix2 p j)
      = Cert.AttnSpec.cosine (fun k => x5r (ix2 p k)) (fun j k => x5 (ix2 j k)) j := by
  unfold k0_pay4
  simp only [shapeCast_self]
  refine (Ideal.matmul_constant_zero_apply (φ₁ := .bf16) (φ₂ := .bf16) dot_S256x512_S4096x512_S256x4096_1_1_0_0_n_n none _ _ (ix2 p j)).trans ?_
  unfold Cert.AttnSpec.cosine
  rw [← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 p j) ((contrEquiv1 dot_S256x512_S4096x512_S256x4096_1_1_0_0_n_n 512 rfl rfl).symm k) = ix2 p k :=
    funext fun a => Fin.ext (by
      match a with
      | ⟨0, _⟩ => exact xx_lhs0 _ _
      | ⟨1, _⟩ => exact (dot_S256x512_S4096x512_S256x4096_1_1_0_0_n_n.lhsIdx_val_of_single rfl _ _).trans hk)
  have er : dot_S256x512_S4096x512_S256x4096_1_1_0_0_n_n.rhsIdx (ix2 p j) ((contrEquiv1 dot_S256x512_S4096x512_S256x4096_1_1_0_0_n_n 512 rfl rfl).symm k) = ix2 j k :=
    funext fun a => Fin.ext (by
      match a with
      | ⟨0, _⟩ => exact xx_rhs0 _ _
      | ⟨1, _⟩ => exact (dot_S256x512_S4096x512_S256x4096_1_1_0_0_n_n.rhsIdx_val_of_single rfl _ _).trans hk)
  rw [el, er]

/-! ## The spatial terms read at an entry -/

/-- The inner product of the tile's position `p` with key `j`'s, from the two coordinate columns of the tile's positions
    and the keys' two coordinate rows. -/
theorem pay5_apply (x1 : Vec Ideal S256x2 .f32) (x6 x7 : Vec Ideal S1x4096 .f32) (p : Fin 256) (j : Fin 4096) :
    k0_pay5 (F := Ideal) x1 x6 x7 (ix2 p j)
      = x1 (ix2 p (0 : Fin 2)) * x6 (ix2 (0 : Fin 1) j) + x1 (ix2 p (1 : Fin 2)) * x7 (ix2 (0 : Fin 1) j) := by
  unfold k0_pay5
  simp only [shapeCast_self]
  show broadcastTo S256x4096 (extractStridedSlice S256x1 ![0, 0] x1 slices_S256x2_o0_0_S256x1) broadcasts_S256x1_S256x4096 (ix2 p j)
        * broadcastTo S256x4096 x6 broadcasts_S1x4096_S256x4096 (ix2 p j)
      + broadcastTo S256x4096 (extractStridedSlice S256x1 ![0, 1] x1 slices_S256x2_o0_1_S256x1) broadcasts_S256x1_S256x4096 (ix2 p j)
        * broadcastTo S256x4096 x7 broadcasts_S1x4096_S256x4096 (ix2 p j) = _
  rw [Cert.GraphConv.Column.broadcastTo_a1_ab_apply, Cert.GraphConv.Column.broadcastTo_a1_ab_apply,
    broadcastTo_1b_ab_apply, broadcastTo_1b_ab_apply,
    slice2_axis1_apply 0 x1 slices_S256x2_o0_0_S256x1 p (0 : Fin 1) (0 : Fin 2) rfl,
    slice2_axis1_apply 1 x1 slices_S256x2_o0_1_S256x1 p (0 : Fin 1) (1 : Fin 2) rfl]

/-- The source index over row `p` of a two-axis array with coordinate `k` put back on the second axis. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A vector `[a]` kept as a column and broadcast along the second axis reads, at `(p, c)`, its entry `p`. -/
theorem column_apply {α : Type} {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ w hc) hb (ix2 p c) = w (ix1 p) :=
  (Cert.GraphConv.Column.broadcastTo_a1_ab_apply _ hb p c).trans (Cert.GraphConv.Column.shapeCast_a_a1_apply w hc p 0)

/-- The squared norm of the tile's position `p` plus key `j`'s squared norm. -/
theorem pay6_apply (x1 : Vec Ideal S256x2 .f32) (x8 : Vec Ideal S1x4096 .f32) (p : Fin 256) (j : Fin 4096) :
    k0_pay6 (F := Ideal) x1 x8 (ix2 p j)
      = (∑ k : Fin 2, x1 (ix2 p k) * x1 (ix2 p k)) + x8 (ix2 (0 : Fin 1) j) := by
  unfold k0_pay6
  simp only [shapeCast_self]
  show broadcastTo S256x4096 (shapeCast S256x1 (multiReduction (F := Ideal) .add [1] S256 (mulf x1 x1) 0x00000000#32
          reduces_S256x2_S256 (.inl rfl) rfl) shapeCasts_S256_S256x1) broadcasts_S256x1_S256x4096 (ix2 p j)
      + broadcastTo S256x4096 x8 broadcasts_S1x4096_S256x4096 (ix2 p j) = _
  rw [column_apply, broadcastTo_1b_ab_apply]
  refine congrArg (· + x8 (ix2 (0 : Fin 1) j)) ?_
  refine (Ideal.multiReduction_add_single (φ := .f32) (mulf x1 x1) 0x00000000#32 reduces_S256x2_S256 (.inl rfl) rfl (ix1 p)).trans ?_
  show (∑ k : Fin 2, mulf (F := Ideal) (φ := .f32) x1 x1 (reduces_S256x2_S256.lift (ix1 p) k)) = _
  refine Finset.sum_congr rfl fun k _ => ?_
  rw [lift_row reduces_S256x2_S256 p k]
  rfl

/-! ## The softmax of a tile of logits, and the logits' tile

The stored attention tile is the row softmax of a tile of logits; both are named here so that each is read at an
entry once, over a variable tile. -/

/-- A row's maximum, folded from `-∞` over the row's entries. -/
theorem rowMax_apply (L : FVec Ideal S256x4096 .f32) (p : Fin 256) :
    multiReduction (F := Ideal) .maximumf [1] S256 L 0xFF800000#32 reduces_S256x4096_S256 (.inl rfl) rfl (ix1 p)
      = Cert.AttnSpec.rowMax (fun j => L (ix2 p j)) := by
  refine (Ideal.multiReduction_maximumf_single (φ := .f32) L 0xFF800000#32 reduces_S256x4096_S256 (.inl rfl) rfl (ix1 p)).trans ?_
  show (Finset.univ : Finset (Fin 4096)).fold max (Ideal.ofBits .f32 0xFF800000#32) (L ∘ reduces_S256x4096_S256.lift (ix1 p)) = _
  unfold Cert.AttnSpec.rowMax
  refine congrArg (fun f => (Finset.univ : Finset (Fin 4096)).fold max (Ideal.ofBits .f32 0xFF800000#32) f) ?_
  exact funext fun k => congrArg L (lift_row reduces_S256x4096_S256 p k)

/-- A row's sum. -/
theorem rowSum_apply (E : FVec Ideal S256x4096 .f32) (p : Fin 256) :
    multiReduction (F := Ideal) .add [1] S256 E 0x00000000#32 reduces_S256x4096_S256 (.inl rfl) rfl (ix1 p)
      = ∑ j : Fin 4096, E (ix2 p j) := by
  refine (Ideal.multiReduction_add_single (φ := .f32) E 0x00000000#32 reduces_S256x4096_S256 (.inl rfl) rfl (ix1 p)).trans ?_
  show (∑ k : Fin 4096, E (reduces_S256x4096_S256.lift (ix1 p) k)) = _
  exact Finset.sum_congr rfl fun k _ => congrArg E (lift_row reduces_S256x4096_S256 p k)

/-- A tile's rows, each shifted by its maximum and exponentiated. -/
def expTile (L : FVec Ideal S256x4096 .f32) : FVec Ideal S256x4096 .f32 :=
  exp (subf L (broadcastTo S256x4096 (shapeCast S256x1 (multiReduction (F := Ideal) .maximumf [1] S256 L 0xFF800000#32
    reduces_S256x4096_S256 (.inl rfl) rfl) shapeCasts_S256_S256x1) broadcasts_S256x1_S256x4096))

/-- The row softmax of a tile. -/
def softTile (L : FVec Ideal S256x4096 .f32) : FVec Ideal S256x4096 .f32 :=
  divf (expTile L) (broadcastTo S256x4096 (shapeCast S256x1 (multiReduction (F := Ideal) .add [1] S256 (expTile L) 0x00000000#32
    reduces_S256x4096_S256 (.inl rfl) rfl) shapeCasts_S256_S256x1) broadcasts_S256x1_S256x4096)

/-- The tile of logits, from the two products, the two spatial terms, the splat `2`, the tile's spatial feature column
    and the keys' spatial feature row. -/
def logitTile (v8 v14 v30 v36 v37 : FVec Ideal S256x4096 .f32) (v45 : Vec Ideal S256x1 .f32) (v47 : Vec Ideal S1x4096 .f32) :
    FVec Ideal S256x4096 .f32 :=
  addf (addf (addf v8 v14)
      (exp (mulf (broadcast S256x4096 (Scalar.ofBits (F := Ideal) .f32 0xBF000000#32))
        (maximumf (subf v36 (mulf v37 v30)) (broadcast S256x4096 (Scalar.ofBits (F := Ideal) .f32 0x00000000#32))))))
    (tanh (subf (broadcastTo S256x4096 (shapeCast S256x1 v45 shapeCasts_S256x1_S256x1) broadcasts_S256x1_S256x4096)
      (broadcastTo S256x4096 (shapeCast S1x4096 v47 shapeCasts_S1x4096_S1x4096) broadcasts_S1x4096_S256x4096)))

/-- The stored attention tile is the row softmax of the tile of logits: the two spell the same term. -/
theorem pay1_eq (v8 v14 v30 v36 v37 : FVec Ideal S256x4096 .f32) (v45 : Vec Ideal S256x1 .f32) (v47 : Vec Ideal S1x4096 .f32) :
    k0_pay1 (F := Ideal) v8 v14 v30 v36 v37 v45 v47 = softTile (logitTile v8 v14 v30 v36 v37 v45 v47) := rfl

/-- An entry of the shifted, exponentiated tile. -/
theorem expTile_apply (L : FVec Ideal S256x4096 .f32) (p : Fin 256) (j : Fin 4096) :
    expTile L (ix2 p j) = Cert.AttnSpec.expRow (fun j => L (ix2 p j)) j := by
  unfold expTile
  show Ideal.exp (L (ix2 p j) - broadcastTo S256x4096 (shapeCast S256x1 (multiReduction (F := Ideal) .maximumf [1] S256 L 0xFF800000#32
    reduces_S256x4096_S256 (.inl rfl) rfl) shapeCasts_S256_S256x1) broadcasts_S256x1_S256x4096 (ix2 p j)) = _
  rw [column_apply, rowMax_apply]
  rfl

/-- An entry of the row softmax of a tile is the softmax weight of its column in its row. -/
theorem softTile_apply (L : FVec Ideal S256x4096 .f32) (p : Fin 256) (j : Fin 4096) :
    softTile L (ix2 p j) = Cert.AttnSpec.softRow (fun j => L (ix2 p j)) j := by
  unfold softTile
  show Ideal.div (expTile L (ix2 p j)) (broadcastTo S256x4096 (shapeCast S256x1 (multiReduction (F := Ideal) .add [1] S256 (expTile L)
    0x00000000#32 reduces_S256x4096_S256 (.inl rfl) rfl) shapeCasts_S256_S256x1) broadcasts_S256x1_S256x4096 (ix2 p j)) = _
  rw [column_apply, rowSum_apply, expTile_apply]
  unfold Cert.AttnSpec.softRow
  exact congrArg (Ideal.div _) (Finset.sum_congr rfl fun j' _ => expTile_apply L p j')

/-- An entry of the tile of logits is the logit of the tile's row against the key. -/
theorem logitTile_apply (x0 : Vec Ideal S256x256 .bf16) (x1 : Vec Ideal S256x2 .f32) (x2 : Vec Ideal S256x1 .f32)
    (x3 : Vec Ideal S4096x256 .bf16) (x5r : Vec Ideal S256x512 .bf16) (x5 : Vec Ideal S4096x512 .bf16)
    (x6 x7 x8 x9 : Vec Ideal S1x4096 .f32) (p : Fin 256) (j : Fin 4096) :
    logitTile (k0_pay3 x0 x3) (k0_pay4 x5r x5) (k0_pay5 x1 x6 x7) (k0_pay6 x1 x8) k0_pay7 x2 x9 (ix2 p j)
      = tileLogits x0 x1 x2 x3 x5r x5 x6 x7 x8 x9 p j := by
  unfold logitTile
  simp only [shapeCast_self]
  show ((k0_pay3 (F := Ideal) x0 x3 (ix2 p j) + k0_pay4 (F := Ideal) x5r x5 (ix2 p j))
      + Ideal.exp (Ideal.ofBits .f32 0xBF000000#32
          * max (k0_pay6 (F := Ideal) x1 x8 (ix2 p j) - Ideal.ofBits .f32 0x40000000#32 * k0_pay5 (F := Ideal) x1 x6 x7 (ix2 p j))
              (Ideal.ofBits .f32 0x00000000#32)))
      + Ideal.tanh (broadcastTo S256x4096 x2 broadcasts_S256x1_S256x4096 (ix2 p j)
          - broadcastTo S256x4096 x9 broadcasts_S1x4096_S256x4096 (ix2 p j)) = _
  rw [pay3_apply, pay4_apply, pay5_apply, pay6_apply, Cert.GraphConv.Column.broadcastTo_a1_ab_apply, broadcastTo_1b_ab_apply]
  rfl

/-- Entry `(p, j)` of the stored attention tile. -/
theorem attn_entry (x0 : Vec Ideal S256x256 .bf16) (x1 : Vec Ideal S256x2 .f32) (x2 : Vec Ideal S256x1 .f32)
    (x3 : Vec Ideal S4096x256 .bf16) (x5r : Vec Ideal S256x512 .bf16) (x5 : Vec Ideal S4096x512 .bf16)
    (x6 x7 x8 x9 : Vec Ideal S1x4096 .f32) (p : Fin 256) (j : Fin 4096) :
    k0_pay1 (F := Ideal) (k0_pay3 x0 x3) (k0_pay4 x5r x5) (k0_pay5 x1 x6 x7) (k0_pay6 x1 x8) k0_pay7 x2 x9 (ix2 p j)
      = Cert.AttnSpec.softRow (tileLogits x0 x1 x2 x3 x5r x5 x6 x7 x8 x9 p) j := by
  rw [pay1_eq, softTile_apply]
  exact congrArg (fun L => Cert.AttnSpec.softRow L j) (funext fun j' => logitTile_apply x0 x1 x2 x3 x5r x5 x6 x7 x8 x9 p j')

/-! ## The product with the value rows -/

/-- On its row axis the left operand of the value product reads the entry's row. -/
theorem av_lhs0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl

/-- On its feature axis the right operand of the value product reads the entry's column. -/
theorem av_rhs1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

/-- The product of a tile of weights with the value rows at `(p, k)`: the sum over the keys of row `p`'s weights times
    feature `k` of the keys' value rows. -/
theorem av_apply (A : FVec Ideal S256x4096 .bf16) (x4 : Vec Ideal S4096x256 .bf16) (p : Fin 256) (k : Fin 256) :
    matmul (F := Ideal) (φ₁ := .bf16) (φ₂ := .bf16) dot_S256x4096_S4096x256_S256x256_1_0_0_1_n_n none A x4 (constant S256x256 .f32 0x00000000#32) (ix2 p k)
      = ∑ j : Fin 4096, A (ix2 p j) * x4 (ix2 j k) := by
  refine (Ideal.matmul_constant_zero_apply (φ₁ := .bf16) (φ₂ := .bf16) dot_S256x4096_S4096x256_S256x256_1_0_0_1_n_n none _ _ (ix2 p k)).trans ?_
  rw [← Equiv.sum_comp (contrEquiv1 dot_S256x4096_S4096x256_S256x256_1_0_0_1_n_n 4096 rfl rfl).symm]
  refine Finset.sum_congr rfl fun j _ => ?_
  have hj := contrEquiv1_symm_val dot_S256x4096_S4096x256_S256x256_1_0_0_1_n_n 4096 rfl rfl j
  have el : dot_S256x4096_S4096x256_S256x256_1_0_0_1_n_n.lhsIdx (ix2 p k) ((contrEquiv1 dot_S256x4096_S4096x256_S256x256_1_0_0_1_n_n 4096 rfl rfl).symm j) = ix2 p j :=
    funext fun a => Fin.ext (by
      match a with
      | ⟨0, _⟩ => exact av_lhs0 _ _
      | ⟨1, _⟩ => exact (dot_S256x4096_S4096x256_S256x256_1_0_0_1_n_n.lhsIdx_val_of_single rfl _ _).trans hj)
  have er : dot_S256x4096_S4096x256_S256x256_1_0_0_1_n_n.rhsIdx (ix2 p k) ((contrEquiv1 dot_S256x4096_S4096x256_S256x256_1_0_0_1_n_n 4096 rfl rfl).symm j) = ix2 j k :=
    funext fun a => Fin.ext (by
      match a with
      | ⟨0, _⟩ => exact (dot_S256x4096_S4096x256_S256x256_1_0_0_1_n_n.rhsIdx_val_of_single rfl _ _).trans hj
      | ⟨1, _⟩ => exact av_rhs1 _ _)
  rw [el, er]

/-- Entry `(p, k)` of the stored updated tile. -/
theorem upd_entry (x0 : Vec Ideal S256x256 .bf16) (x1 : Vec Ideal S256x2 .f32) (x2 : Vec Ideal S256x1 .f32)
    (x3 : Vec Ideal S4096x256 .bf16) (x4 : Vec Ideal S4096x256 .bf16) (x5r : Vec Ideal S256x512 .bf16)
    (x5 : Vec Ideal S4096x512 .bf16) (x6 x7 x8 x9 : Vec Ideal S1x4096 .f32) (p : Fin 256) (k : Fin 256) :
    k0_pay2 (F := Ideal) (k0_pay3 x0 x3) (k0_pay4 x5r x5) (k0_pay5 x1 x6 x7) (k0_pay6 x1 x8) k0_pay7 x2 x9 x4 (ix2 p k)
      = Cert.AttnSpec.updRow (tileLogits x0 x1 x2 x3 x5r x5 x6 x7 x8 x9 p) (fun j k => x4 (ix2 j k)) k := by
  unfold k0_pay2
  simp only [shapeCast_self]
  refine (av_apply _ x4 p k).trans ?_
  unfold Cert.AttnSpec.updRow
  refine Finset.sum_congr rfl fun j _ => ?_
  refine congrArg (· * x4 (ix2 j k)) ?_
  exact attn_entry x0 x1 x2 x3 x5r x5 x6 x7 x8 x9 p j

end Cert.KernelIdeal.Entry

end
-- ==== Proof.Projected.lean ====
/-
  The projected arrays the kernel's region finds, as functions of the launch contents.

  Before the region the kernel's host program computes, from the sixteen arguments, the queries, keys and values
  (three affine maps of the expression matrix), the row-normalised expressions, the scalar spatial feature (an affine
  map, a tanh layer, a ReLU layer and a final projection of the positions) and the squared position norms — by the
  same operations, in the same order, as the reference computes them. Named here once, as the reference's stages
  applied to the kernel's launch contents; the changes of float format in between are the identity on the extended
  reals.
-/
import proofs.«120327_j83880711291224_2_alg».proof.Proof.Gen.KernelIdeal.Frame.Runs
import proofs.«120327_j83880711291224_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The queries `gene_expr · Wq + bq`. -/
def queries (c : Dev nD) : S4096x256.Idx → EReal :=
  Cert.ReferenceIdeal.Read.val_main_v3 (F := Ideal) (m ((c : Thread nD τ).loc main_arg0)) (m ((c : Thread nD τ).loc main_arg2)) (m ((c : Thread nD τ).loc main_arg3))

/-- The keys `gene_expr · Wk + bk`. -/
def keys (c : Dev nD) : S4096x256.Idx → EReal :=
  Cert.ReferenceIdeal.Read.val_main_v7 (F := Ideal) (m ((c : Thread nD τ).loc main_arg0)) (m ((c : Thread nD τ).loc main_arg4)) (m ((c : Thread nD τ).loc main_arg5))

/-- The values `gene_expr · Wv + bv`. -/
def values (c : Dev nD) : S4096x256.Idx → EReal :=
  Cert.ReferenceIdeal.Read.val_main_v11 (F := Ideal) (m ((c : Thread nD τ).loc main_arg0)) (m ((c : Thread nD τ).loc main_arg6)) (m ((c : Thread nD τ).loc main_arg7))

/-- The expression rows divided by their norms (clamped below). -/
def unitRows (c : Dev nD) : S4096x512.Idx → EReal :=
  Cert.ReferenceIdeal.Read.val_main_v59 (F := Ideal) (m ((c : Thread nD τ).loc main_arg0))

/-- The positions, as launched. -/
def positions (c : Dev nD) : S4096x2.Idx → EReal := (m ((c : Thread nD τ).loc main_arg1))

/-- The scalar spatial feature of each node. -/
def feature (c : Dev nD) : S4096.Idx → EReal :=
  Cert.ReferenceIdeal.Read.val_main_v30 (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The squared norm of each position. -/
def sqNorms (c : Dev nD) : S4096.Idx → EReal :=
  Cert.ReferenceIdeal.Read.val_main_v38 (F := Ideal) (m ((c : Thread nD τ).loc main_arg1))

set_option maxHeartbeats 4000000 in
/-- The staged query array is the queries. -/
theorem staged_queries (c : Dev nD) (i : S4096x256.Idx) :
    (V m c main_v38 : S4096x256.Idx → EReal) i = queries m c i := by
  unfold queries
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
/-- The staged key array is the keys. -/
theorem staged_keys (c : Dev nD) (i : S4096x256.Idx) :
    (V m c main_v39 : S4096x256.Idx → EReal) i = keys m c i := by
  unfold keys
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
/-- The staged value array is the values. -/
theorem staged_values (c : Dev nD) (i : S4096x256.Idx) :
    (V m c main_v40 : S4096x256.Idx → EReal) i = values m c i := by
  unfold values
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
/-- The staged normalised-expression array. -/
theorem staged_unitRows (c : Dev nD) (i : S4096x512.Idx) :
    (V m c main_v41 : S4096x512.Idx → EReal) i = unitRows m c i := by
  unfold unitRows
  dsimp only [V]
  simp only [hostOps0, hostOps0_1, hostOps0_2, hostOps0_3, hostOps0_4, List.flatten_cons, List.flatten_nil, List.append_nil, List.cons_append, List.nil_append]
  after_results_simp
  rfl

/-- The staged position array is the argument. -/
theorem staged_positions (c : Dev nD) : (V m c main_arg1 : S4096x2.Idx → EReal) = positions m c :=
  V_main_arg1 m c

end Cert.KernelIdeal.Staged

end
-- ==== Proof.ProjectedRows.lean ====
/-
  The key-side rows and the query-side column the region finds, read at an entry.

  The kernel's host program lays the per-key scalars out as rows `[1, 4096]` — the two position coordinates (a column
  slice of the positions, flattened and re-laid), the squared position norms and the spatial feature — and the
  per-query spatial feature as a column `[4096, 1]`. A reshape keeps the row-major position, so entry `(0, j)` of a
  row is entry `j` of the vector it re-lays, and entry `(i, 0)` of the column likewise.
-/
import proofs.«120327_j83880711291224_2_alg».proof.Proof.Gen.KernelIdeal.Frame.Runs
import proofs.«120327_j83880711291224_2_alg».proof.Proof.Gen.ReferenceIdeal.Read
import proofs.«120327_j83880711291224_2_alg».proof.Proof.Projected
import proofs.«120327_j83880711291224_2_alg».proof.Proof.LibColumn
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A column `[a, 1]` flattened to `[a]` reads, at `i`, the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

set_option maxHeartbeats 4000000 in
/-- The staged feature column at `(i, 0)` is node `i`'s spatial feature. -/
theorem staged_featureCol (c : Dev nD) (i : Fin 4096) :
    (V m c main_v50 : S4096x1.Idx → EReal) (ix2 i (0 : Fin 1)) = feature m c (ix1 i) := by
  have e : (V m c main_v50 : S4096x1.Idx → EReal) = shapeCast S4096x1 (feature m c) shapeCasts_S4096_S4096x1 := by
    unfold feature
    dsimp only [V]
    simp only [hostOps0, hostOps0_1, hostOps0_2, hostOps0_3, hostOps0_4, List.flatten_cons, List.flatten_nil, List.append_nil, List.cons_append, List.nil_append]
    after_results_simp
    rfl
  rw [e]
  exact Cert.GraphConv.Column.shapeCast_a_a1_apply _ _ i 0

set_option maxHeartbeats 4000000 in
/-- The staged feature row at `(0, j)` is node `j`'s spatial feature. -/
theorem staged_featureRow (c : Dev nD) (j : Fin 4096) :
    (V m c main_v49 : S1x4096.Idx → EReal) (ix2 (0 : Fin 1) j) = feature m c (ix1 j) := by
  have e : (V m c main_v49 : S1x4096.Idx → EReal) = shapeCast S1x4096 (feature m c) shapeCasts_S4096_S1x4096 := by
    unfold feature
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 j

set_option maxHeartbeats 4000000 in
/-- The staged squared-norm row at `(0, j)` is position `j`'s squared norm. -/
theorem staged_sqRow (c : Dev nD) (j : Fin 4096) :
    (V m c main_v48 : S1x4096.Idx → EReal) (ix2 (0 : Fin 1) j) = sqNorms m c (ix1 j) := by
  have e : (V m c main_v48 : S1x4096.Idx → EReal) = shapeCast S1x4096 (sqNorms m c) shapeCasts_S4096_S1x4096 := by
    unfold sqNorms
    dsimp only [V]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 j

set_option maxHeartbeats 4000000 in
/-- The first staged coordinate row at `(0, j)` is position `j`'s first coordinate. -/
theorem staged_coordRow0 (c : Dev nD) (j : Fin 4096) :
    (V m c main_v44 : S1x4096.Idx → EReal) (ix2 (0 : Fin 1) j) = positions m c (ix2 j (0 : Fin 2)) := by
  have e : (V m c main_v44 : S1x4096.Idx → EReal)
      = shapeCast S1x4096 (shapeCast S4096 (extractStridedSlice S4096x1 ![0, 0] (positions m c) slices_S4096x2_S4096x1_0_0)
          shapeCasts_S4096x1_S4096) shapeCasts_S4096_S1x4096 := by
    unfold positions
    dsimp only [V]
    simp only [hostOps0, hostOps0_1, hostOps0_2, hostOps0_3, hostOps0_4, List.flatten_cons, List.flatten_nil, List.append_nil, List.cons_append, List.nil_append]
    after_results_simp
    rfl
  rw [e]
  refine (shapeCast_a_1a_apply _ _ 0 j).trans ?_
  refine (shapeCast_a1_a_apply _ _ j).trans ?_
  exact slice2_axis1_apply 0 _ _ j (0 : Fin 1) (0 : Fin 2) rfl

set_option maxHeartbeats 4000000 in
/-- The second staged coordinate row at `(0, j)` is position `j`'s second coordinate. -/
theorem staged_coordRow1 (c : Dev nD) (j : Fin 4096) :
    (V m c main_v47 : S1x4096.Idx → EReal) (ix2 (0 : Fin 1) j) = positions m c (ix2 j (1 : Fin 2)) := by
  have e : (V m c main_v47 : S1x4096.Idx → EReal)
      = shapeCast S1x4096 (shapeCast S4096 (extractStridedSlice S4096x1 ![0, 1] (positions m c) slices_S4096x2_S4096x1_0_1)
          shapeCasts_S4096x1_S4096) shapeCasts_S4096_S1x4096 := by
    unfold positions
    dsimp only [V]
    simp only [hostOps0, hostOps0_1, hostOps0_2, hostOps0_3, hostOps0_4, List.flatten_cons, List.flatten_nil, List.append_nil, List.cons_append, List.nil_append]
    after_results_simp
    rfl
  rw [e]
  refine (shapeCast_a_1a_apply _ _ 0 j).trans ?_
  refine (shapeCast_a1_a_apply _ _ j).trans ?_
  exact slice2_axis1_apply 1 _ _ j (0 : Fin 1) (1 : Fin 2) rfl

end Cert.KernelIdeal.Staged

end
-- ==== Proof.Tiles.lean ====
/-
  From the tiles each grid point writes to the two result arrays.

  Grid point `t` (of 16) is given rows `256·t … 256·t + 255` of the queries, of the positions and of the feature
  column, and the whole of every key-side array; it writes rows `256·t … 256·t + 255` of both results. Entry `(p, j)`
  of its attention tile is the softmax weight of key `j` in the logits of row `256·t + p`, so the tile is the
  restriction of ONE array — the specification's attention array of the projected arrays — and, the sixteen row bands
  covering the array, the result is that array. The same for the updated expression.
-/
import proofs.«120327_j83880711291224_2_alg».proof.Proof.Gen.KernelIdeal.Value
import proofs.«120327_j83880711291224_2_alg».proof.Proof.KernelBody
import proofs.«120327_j83880711291224_2_alg».proof.Proof.KernelEntry
import proofs.«120327_j83880711291224_2_alg».proof.Proof.Projected
import proofs.«120327_j83880711291224_2_alg».proof.Proof.ProjectedRows
import proofs.«120327_j83880711291224_2_alg».proof.Proof.Spec
import Idealize.ShloMosaic.Lib.Pipeline.Value
import Idealize.ShloMosaic.Lib.ValueIdx

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The attention weights of the projected arrays. -/
def attnOf (c : Dev nD) : S4096x4096.Idx → EReal :=
  Cert.AttnSpec.attnArr (Staged.queries m c) (Staged.keys m c) (Staged.unitRows m c) (Staged.positions m c) (Staged.feature m c) (Staged.sqNorms m c)

/-- The updated expression of the projected arrays. -/
def updOf (c : Dev nD) : S4096x256.Idx → EReal :=
  Cert.AttnSpec.updArr (Staged.queries m c) (Staged.keys m c) (Staged.unitRows m c) (Staged.positions m c) (Staged.feature m c) (Staged.sqNorms m c) (Staged.values m c)

/-- Equal rows give equal logits. -/
theorem logitRow_congr {q q' : Fin 256 → EReal} {xr xr' : Fin 512 → EReal} {a a' : Fin 2 → EReal} {fr fr' : EReal}
    {Kk Kk' : Fin 4096 → Fin 256 → EReal} {Xk Xk' : Fin 4096 → Fin 512 → EReal}
    {p0 p0' p1 p1' sqk sqk' fk fk' : Fin 4096 → EReal}
    (hq : q = q') (hx : xr = xr') (ha : a = a') (hf : fr = fr') (hK : Kk = Kk') (hX : Xk = Xk')
    (h0 : p0 = p0') (h1 : p1 = p1') (hs : sqk = sqk') (hk : fk = fk') :
    Cert.AttnSpec.logitRow q xr a fr Kk Xk p0 p1 sqk fk = Cert.AttnSpec.logitRow q' xr' a' fr' Kk' Xk' p0' p1' sqk' fk' := by
  subst hq hx ha hf hK hX h0 h1 hs hk; rfl

/-! ## The index maps, decided over the sixteen grid points -/

/-- The two outputs and the three query-side inputs move down the rows with the grid point; the seven key-side inputs
    stay; the body's own row offset into the resident expression block is `256·t`. -/
theorem index_facts : ∀ t : Fin cfg0.N,
    win0_10.index t (0 : Fin 2) = t.val ∧ win0_10.index t (1 : Fin 2) = 0
    ∧ win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ k0_off1 (grid0.coords t) (0 : Fin 2) = t.val * 256 ∧ k0_off1 (grid0.coords t) (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ t.val < 16 :=
  (by decide +kernel : ∀ t : Fin grid0.N, _)

/-- There are sixteen grid points. -/
theorem point_lt : ∀ t : Fin cfg0.N, t.val < 16 :=
  (by decide +kernel : ∀ t : Fin grid0.N, _)

/-! ## Each input block, read where the output tile's entry says -/

/-- The key block is the whole key array. -/
theorem keys_block (c : Dev nD) (t : Fin cfg0.N) (y : S4096x256.Idx) :
    (iblk m c 3 t : S4096x256.Idx → EReal) y = (V m c main_v39 : S4096x256.Idx → EReal) y := by
  obtain ⟨-, -, -, -, -, -, -, -, -, -, -, -, e0, e1, -⟩ := index_facts t
  show (V m c main_v39 : S4096x256.Idx → EReal) (((cfg0.win 3).blk t).view.emb y) = _
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 256 + 1 * (y 1).val = (y 1).val; omega

/-- The value block is the whole value array. -/
theorem values_block (c : Dev nD) (t : Fin cfg0.N) (y : S4096x256.Idx) :
    (iblk m c 4 t : S4096x256.Idx → EReal) y = (V m c main_v40 : S4096x256.Idx → EReal) y := by
  obtain ⟨-, -, -, -, -, -, -, -, -, -, -, -, -, -, e0, e1, -⟩ := index_facts t
  show (V m c main_v40 : S4096x256.Idx → EReal) (((cfg0.win 4).blk t).view.emb y) = _
  refine congrArg _ (funext fun a => Fin.ext ?_)
  match a with
  | ⟨0, _⟩ => show win0_4.index t (0 : Fin 2) * 4096 + 1 * (y 0).val = (y 0).val; omega
  | ⟨1, _⟩ => show win0_4.index t (1 : Fin 2) * 256 + 1 * (y 1).val = (y 1).val; omega

/-- The resident expression block is the whole normalised-expression array. -/
theorem unitRows_block (c : Dev nD) (t : Fin cfg0.N) (y : S4096x512.Idx) :
    (iblk m c 5 t : S4096x512.Idx → EReal) y = (V m c main_v41 : S4096x512.Idx → EReal) y := by
  obtain ⟨-, -, -, -, -, -, -, -, -, -, -, -, -, -, -, -, e0, e1, -⟩ := index_facts t
  show (V m c main_v41 : S4096x512.Idx → EReal) (((cfg0.win 5).blk t).view.emb y) = _
  refine congrArg _ (funext fun a => Fin.ext ?_)
  match a with
  | ⟨0, _⟩ => show win0_5.index t (0 : Fin 2) * 4096 + 1 * (y 0).val = (y 0).val; omega
  | ⟨1, _⟩ => show win0_5.index t (1 : Fin 2) * 512 + 1 * (y 1).val = (y 1).val; omega

/-- The first coordinate row, whole. -/
theorem coordRow0_block (c : Dev nD) (t : Fin cfg0.N) (y : S1x4096.Idx) :
    (iblk m c 6 t : S1x4096.Idx → EReal) y = (V m c main_v44 : S1x4096.Idx → EReal) y := by
  obtain ⟨-, -, -, -, -, -, -, -, -, -, -, -, -, -, -, -, -, -, e0, e1, -⟩ := index_facts t
  show (V m c main_v44 : S1x4096.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 4096 + 1 * (y 1).val = (y 1).val; omega

/-- The second coordinate row, whole. -/
theorem coordRow1_block (c : Dev nD) (t : Fin cfg0.N) (y : S1x4096.Idx) :
    (iblk m c 7 t : S1x4096.Idx → EReal) y = (V m c main_v47 : S1x4096.Idx → EReal) y := by
  obtain ⟨-, -, -, -, -, -, -, -, -, -, -, -, -, -, -, -, -, -, -, -, e0, e1, -⟩ := index_facts t
  show (V m c main_v47 : S1x4096.Idx → EReal) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 4096 + 1 * (y 1).val = (y 1).val; omega

/-- The squared-norm row, whole. -/
theorem sqRow_block (c : Dev nD) (t : Fin cfg0.N) (y : S1x4096.Idx) :
    (iblk m c 8 t : S1x4096.Idx → EReal) y = (V m c main_v48 : S1x4096.Idx → EReal) y := by
  obtain ⟨-, -, -, -, -, -, -, -, -, -, -, -, -, -, -, -, -, -, -, -, -, -, e0, e1, -⟩ := index_facts t
  show (V m c main_v48 : S1x4096.Idx → EReal) (((cfg0.win 8).blk t).view.emb y) = _
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 4096 + 1 * (y 1).val = (y 1).val; omega

/-- The feature row, whole. -/
theorem featureRow_block (c : Dev nD) (t : Fin cfg0.N) (y : S1x4096.Idx) :
    (iblk m c 9 t : S1x4096.Idx → EReal) y = (V m c main_v49 : S1x4096.Idx → EReal) y := by
  obtain ⟨-, -, -, -, -, -, -, -, -, -, -, -, -, -, -, -, -, -, -, -, -, -, -, -, e0, e1, -⟩ := index_facts t
  show (V m c main_v49 : S1x4096.Idx → EReal) (((cfg0.win 9).blk t).view.emb y) = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 4096 + 1 * (y 1).val = (y 1).val; omega

/-- Row `p` of the query tile at point `t` is row `256·t + p` of the queries. -/
theorem query_tile (c : Dev nD) (t : Fin cfg0.N) (p : Fin 256) (k : Fin 256) (i : Fin 4096) (hi : i.val = t.val * 256 + p.val) :
    (iblk m c 0 t : S256x256.Idx → EReal) (ix2 p k) = Staged.queries m c (ix2 i k) := by
  obtain ⟨-, -, -, -, e0, e1, -⟩ := index_facts t
  refine Eq.trans ?_ (Staged.staged_queries m c (ix2 i k))
  show (V m c main_v38 : S4096x256.Idx → EReal) (((cfg0.win 0).blk t).view.emb (ix2 p k)) = _
  refine congrArg _ (funext fun a => Fin.ext ?_)
  match a with
  | ⟨0, _⟩ => show win0_0.index t (0 : Fin 2) * 256 + 1 * p.val = i.val; omega
  | ⟨1, _⟩ => show win0_0.index t (1 : Fin 2) * 256 + 1 * k.val = k.val; omega

/-- Row `p` of the position tile at point `t` is position `256·t + p`. -/
theorem position_tile (c : Dev nD) (t : Fin cfg0.N) (p : Fin 256) (k : Fin 2) (i : Fin 4096) (hi : i.val = t.val * 256 + p.val) :
    (iblk m c 1 t : S256x2.Idx → EReal) (ix2 p k) = Staged.positions m c (ix2 i k) := by
  obtain ⟨-, -, -, -, -, -, e0, e1, -⟩ := index_facts t
  rw [← Staged.staged_positions m c]
  show (V m c main_arg1 : S4096x2.Idx → EReal) (((cfg0.win 1).blk t).view.emb (ix2 p k)) = _
  refine congrArg _ (funext fun a => Fin.ext ?_)
  match a with
  | ⟨0, _⟩ => show win0_1.index t (0 : Fin 2) * 256 + 1 * p.val = i.val; omega
  | ⟨1, _⟩ => show win0_1.index t (1 : Fin 2) * 2 + 1 * k.val = k.val; omega

/-- Entry `p` of the feature-column tile at point `t` is node `256·t + p`'s spatial feature. -/
theorem featureCol_tile (c : Dev nD) (t : Fin cfg0.N) (p : Fin 256) (i : Fin 4096) (hi : i.val = t.val * 256 + p.val) :
    (iblk m c 2 t : S256x1.Idx → EReal) (ix2 p (0 : Fin 1)) = Staged.feature m c (ix1 i) := by
  obtain ⟨-, -, -, -, -, -, -, -, e0, e1, -⟩ := index_facts t
  refine Eq.trans ?_ (Staged.staged_featureCol m c i)
  show (V m c main_v50 : S4096x1.Idx → EReal) (((cfg0.win 2).blk t).view.emb (ix2 p (0 : Fin 1))) = _
  refine congrArg _ (funext fun a => Fin.ext ?_)
  match a with
  | ⟨0, _⟩ => show win0_2.index t (0 : Fin 2) * 256 + 1 * p.val = i.val; omega
  | ⟨1, _⟩ => show win0_2.index t (1 : Fin 2) * 1 + 1 * 0 = 0; omega

/-- The body's second load of the resident expression block, at its own row offset, reads row `256·t + p`. -/
theorem tileRows_apply (t : Fin cfg0.N) (X : S4096x512.Idx → EReal) (p : Fin 256) (k : Fin 512) (i : Fin 4096)
    (hi : i.val = t.val * 256 + p.val) :
    (Body.tileRows (F := Ideal) (grid0.coords t) X : S256x512.Idx → EReal) (ix2 p k) = X (ix2 i k) := by
  obtain ⟨-, -, -, -, -, -, -, -, -, -, e0, e1, -⟩ := index_facts t
  show X ((Rect.unit (s := S4096x512) (k0_off1 (grid0.coords t)) S256x512.size (k0_off1_inb (grid0.coords t))).idx (ix2 p k)) = _
  refine congrArg _ (funext fun a => Fin.ext ?_)
  match a with
  | ⟨0, _⟩ => show k0_off1 (grid0.coords t) (0 : Fin 2) + 1 * p.val = i.val; omega
  | ⟨1, _⟩ => show k0_off1 (grid0.coords t) (1 : Fin 2) + 1 * k.val = k.val; omega

/-- The logits of the tile's row `p` at point `t` are the logits of row `256·t + p` of the projected arrays. -/
theorem tile_logits (c : Dev nD) (t : Fin cfg0.N) (p : Fin 256) (i : Fin 4096) (hi : i.val = t.val * 256 + p.val) :
    Entry.tileLogits (iblk m c 0 t) (iblk m c 1 t) (iblk m c 2 t) (iblk m c 3 t) (Body.tileRows (grid0.coords t) (iblk m c 5 t)) (iblk m c 5 t) (iblk m c 6 t) (iblk m c 7 t) (iblk m c 8 t) (iblk m c 9 t) p
      = Cert.AttnSpec.logits (Staged.queries m c) (Staged.keys m c) (Staged.unitRows m c) (Staged.positions m c) (Staged.feature m c) (Staged.sqNorms m c) i := by
  unfold Entry.tileLogits Cert.AttnSpec.logits
  refine logitRow_congr (funext fun k => query_tile m c t p k i hi) (funext fun k => ?_)
    (funext fun k => position_tile m c t p k i hi) (featureCol_tile m c t p i hi)
    (funext fun j => funext fun k => ?_) (funext fun j => funext fun k => ?_)
    (funext fun j => ?_) (funext fun j => ?_) (funext fun j => ?_) (funext fun j => ?_)
  · refine (tileRows_apply t _ p k i hi).trans ?_
    exact (unitRows_block m c t (ix2 i k)).trans (Staged.staged_unitRows m c (ix2 i k))
  · exact (keys_block m c t (ix2 j k)).trans (Staged.staged_keys m c (ix2 j k))
  · exact (unitRows_block m c t (ix2 j k)).trans (Staged.staged_unitRows m c (ix2 j k))
  · exact (coordRow0_block m c t (ix2 (0 : Fin 1) j)).trans (Staged.staged_coordRow0 m c j)
  · exact (coordRow1_block m c t (ix2 (0 : Fin 1) j)).trans (Staged.staged_coordRow1 m c j)
  · exact (sqRow_block m c t (ix2 (0 : Fin 1) j)).trans (Staged.staged_sqRow m c j)
  · exact (featureRow_block m c t (ix2 (0 : Fin 1) j)).trans (Staged.staged_featureRow m c j)

/-! ## What each point writes back is its tile of the one array -/

/-- The attention tile written back at point `t` is block `t` of the attention array. -/
theorem attn_flushed (c : Dev nD) (t : Fin cfg0.N) :
    (dats m 0 c).flushed 10 t = ((cfg0.win 10).blk t).view.read (Elt Ideal) (attnOf m c) := by
  rw [Value.flushed10_A, Body.attn_stored]
  obtain ⟨e0, e1, -⟩ := index_facts t
  have hlt : t.val < 16 := point_lt t
  funext y
  obtain ⟨p, j, rfl⟩ : ∃ (p : Fin 256) (j : Fin 4096), y = ix2 p j := ⟨y 0, y 1, eq_ix2 y⟩
  have hp : p.val < 256 := p.isLt
  have hemb : ((cfg0.win 10).blk t).view.emb (ix2 p j)
      = (ix2 (⟨t.val * 256 + p.val, by omega⟩ : Fin 4096) j : S4096x4096.Idx) :=
    funext fun a => Fin.ext (by
      match a with
      | ⟨0, _⟩ => show win0_10.index t (0 : Fin 2) * 256 + 1 * p.val = t.val * 256 + p.val; omega
      | ⟨1, _⟩ => show win0_10.index t (1 : Fin 2) * 4096 + 1 * j.val = j.val; omega)
  show k0_pay1 (F := Ideal) (k0_pay3 (iblk m c 0 t) (iblk m c 3 t)) (k0_pay4 (Body.tileRows (grid0.coords t) (iblk m c 5 t)) (iblk m c 5 t)) (k0_pay5 (iblk m c 1 t) (iblk m c 6 t) (iblk m c 7 t)) (k0_pay6 (iblk m c 1 t) (iblk m c 8 t)) k0_pay7 (iblk m c 2 t) (iblk m c 9 t) (ix2 p j)
    = attnOf m c (((cfg0.win 10).blk t).view.emb (ix2 p j))
  rw [hemb]
  refine (Entry.attn_entry (iblk m c 0 t) (iblk m c 1 t) (iblk m c 2 t) (iblk m c 3 t) (Body.tileRows (grid0.coords t) (iblk m c 5 t)) (iblk m c 5 t) (iblk m c 6 t) (iblk m c 7 t) (iblk m c 8 t) (iblk m c 9 t) p j).trans ?_
  exact congrArg (fun L => Cert.AttnSpec.softRow L j) (tile_logits m c t p _ rfl)

/-- The updated tile written back at point `t` is block `t` of the updated array. -/
theorem upd_flushed (c : Dev nD) (t : Fin cfg0.N) :
    (dats m 0 c).flushed 11 t = ((cfg0.win 11).blk t).view.read (Elt Ideal) (updOf m c) := by
  rw [Value.flushed11_A, Body.upd_stored]
  obtain ⟨-, -, e0, e1, -⟩ := index_facts t
  have hlt : t.val < 16 := point_lt t
  funext y
  obtain ⟨p, k, rfl⟩ : ∃ (p : Fin 256) (k : Fin 256), y = ix2 p k := ⟨y 0, y 1, eq_ix2 y⟩
  have hp : p.val < 256 := p.isLt
  have hemb : ((cfg0.win 11).blk t).view.emb (ix2 p k)
      = (ix2 (⟨t.val * 256 + p.val, by omega⟩ : Fin 4096) k : S4096x256.Idx) :=
    funext fun a => Fin.ext (by
      match a with
      | ⟨0, _⟩ => show win0_11.index t (0 : Fin 2) * 256 + 1 * p.val = t.val * 256 + p.val; omega
      | ⟨1, _⟩ => show win0_11.index t (1 : Fin 2) * 256 + 1 * k.val = k.val; omega)
  show k0_pay2 (F := Ideal) (k0_pay3 (iblk m c 0 t) (iblk m c 3 t)) (k0_pay4 (Body.tileRows (grid0.coords t) (iblk m c 5 t)) (iblk m c 5 t)) (k0_pay5 (iblk m c 1 t) (iblk m c 6 t) (iblk m c 7 t)) (k0_pay6 (iblk m c 1 t) (iblk m c 8 t)) k0_pay7 (iblk m c 2 t) (iblk m c 9 t) (iblk m c 4 t) (ix2 p k)
    = updOf m c (((cfg0.win 11).blk t).view.emb (ix2 p k))
  rw [hemb]
  refine (Entry.upd_entry (iblk m c 0 t) (iblk m c 1 t) (iblk m c 2 t) (iblk m c 3 t) (iblk m c 4 t) (Body.tileRows (grid0.coords t) (iblk m c 5 t)) (iblk m c 5 t) (iblk m c 6 t) (iblk m c 7 t) (iblk m c 8 t) (iblk m c 9 t) p k).trans ?_
  refine (congrArg (fun L => Cert.AttnSpec.updRow L (fun j k' => (iblk m c 4 t : S4096x256.Idx → EReal) (ix2 j k')) k)
    (tile_logits m c t p ⟨t.val * 256 + p.val, by omega⟩ rfl)).trans ?_
  exact congrArg (fun Vv => Cert.AttnSpec.updRow (Cert.AttnSpec.logits (Staged.queries m c) (Staged.keys m c) (Staged.unitRows m c) (Staged.positions m c) (Staged.feature m c) (Staged.sqNorms m c) ⟨t.val * 256 + p.val, by omega⟩) Vv k)
    (funext fun j => funext fun k' => (values_block m c t (ix2 j k')).trans (Staged.staged_values m c (ix2 j k')))

/-! ## The sixteen row bands cover each array -/

/-- An index is in point `t`'s attention block iff its row lies in the band `256·t … 256·t + 255`. -/
theorem mem_attn_block (t : Fin cfg0.N) (i : S4096x4096.Idx) :
    i ∈ ((cfg0.win 10).blk t).view.set ↔ ∀ a : Fin 2, win0_10.index t a * S256x4096.size a ≤ (i a).val
      ∧ (i a).val < win0_10.index t a * S256x4096.size a + S256x4096.size a := by
  show i ∈ ((View.whole main_v51_0).slice (win0_10.rect t)).set ↔ _
  rw [View.set_slice_whole, Rect.mem_set_unit]
  exact Iff.rfl

theorem mem_upd_block (t : Fin cfg0.N) (i : S4096x256.Idx) :
    i ∈ ((cfg0.win 11).blk t).view.set ↔ ∀ a : Fin 2, win0_11.index t a * S256x256.size a ≤ (i a).val
      ∧ (i a).val < win0_11.index t a * S256x256.size a + S256x256.size a := by
  show i ∈ ((View.whole main_v51_1).slice (win0_11.rect t)).set ↔ _
  rw [View.set_slice_whole, Rect.mem_set_unit]
  exact Iff.rfl

/-- Every index of the attention array is in the block of the point its row band belongs to. -/
theorem attn_cover (i : S4096x4096.Idx) :
    ∃ t : Fin cfg0.N, (cfg0.win 10).flush t = true ∧ i ∈ ((cfg0.win 10).blk t).view.set := by
  have hi0 : (i 0).val < 4096 := (i 0).isLt
  have hi1 : (i 1).val < 4096 := (i 1).isLt
  let t : Fin cfg0.N := ⟨(i 0).val / 256, by show (i 0).val / 256 < 16; omega⟩
  obtain ⟨e0, e1, -⟩ := index_facts t
  have ht : t.val = (i 0).val / 256 := rfl
  refine ⟨t, flush0_10 t, ?_⟩
  rw [mem_attn_block]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 4096 ≤ (i 1).val ∧ (i 1).val < win0_10.index t (1 : Fin 2) * 4096 + 4096; omega

/-- The same for the updated array. -/
theorem upd_cover (i : S4096x256.Idx) :
    ∃ t : Fin cfg0.N, (cfg0.win 11).flush t = true ∧ i ∈ ((cfg0.win 11).blk t).view.set := by
  have hi0 : (i 0).val < 4096 := (i 0).isLt
  have hi1 : (i 1).val < 256 := (i 1).isLt
  let t : Fin cfg0.N := ⟨(i 0).val / 256, by show (i 0).val / 256 < 16; omega⟩
  obtain ⟨-, -, e0, e1, -⟩ := index_facts t
  have ht : t.val = (i 0).val / 256 := rfl
  refine ⟨t, flush0_11 t, ?_⟩
  rw [mem_upd_block]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 256 ≤ (i 1).val ∧ (i 1).val < win0_11.index t (1 : Fin 2) * 256 + 256; omega

/-! ## The arrays after the run, and the run -/

/-- After the run the attention array is the specification's, of the projected arrays. -/
theorem attn_final (c : Dev nD) : (dats m 0 c).arrAt 10 cfg0.N = attnOf m c :=
  (dats m 0 c).arrAt_eq_of_cover 10 (attnOf m c) (fun t _ => attn_flushed m c t) attn_cover

/-- After the run the updated array is the specification's, of the projected arrays. -/
theorem upd_final (c : Dev nD) : (dats m 0 c).arrAt 11 cfg0.N = updOf m c :=
  (dats m 0 c).arrAt_eq_of_cover 11 (updOf m c) (fun t _ => upd_flushed m c t) upd_cover

end Cert.KernelIdeal.Tiles

end
-- ==== Proof.Laws.lean ====
/-
  The laws of the extended reals that join the two arrangements of the attention row.

  * the float words both programs spell, as the extended reals they denote;
  * a nonnegative real scale moves across an inner product: `Σ (a·c)·b = (Σ a·b)/16` for `c = 1/16`, infinities
    included (multiplication by a nonnegative real distributes over every sum of extended reals);
  * `(-½)·d = (-d)/2`;
  * shifting a row by its maximum twice is shifting it once: with `y = x − sup x`, either `sup y = 0`, or
    `sup x` is infinite and every `y j` is `-∞`, which absorbs any further shift.
-/
import Idealize.ShloMosaic.PureOps.Ideal

noncomputable section

open scoped BigOperators

namespace Cert.AttnLaws

open Idealize.ShloMosaic

/-! ## The float words -/

theorem ofBits_sixteenth : Ideal.ofBits .bf16 0x3D80#16 = ((1 / 16 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_negHalf : Ideal.ofBits .f32 0xBF000000#32 = ((-(1 / 2) : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-! ## The scale across the inner product -/

/-- Multiplication by a nonnegative real distributes over a finite sum of extended reals, whatever
    infinities the sum holds: a nonnegative finite factor keeps the sign of every term, so the two sides meet
    the same infinities in the same order. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert i s hi ih =>
    rw [Finset.sum_insert hi, Finset.sum_insert hi,
      EReal.left_distrib_of_nonneg_of_ne_top (EReal.coe_nonneg.mpr hc) (EReal.coe_ne_top c), ih]

/-- The scale 1/16 folded into the left factors is the quotient of the inner product by 16. -/
theorem scaled_sum {n : ℕ} (a b : Fin n → EReal) :
    ∑ k : Fin n, (a k * Ideal.ofBits .bf16 0x3D80#16) * b k
      = Ideal.div (∑ k : Fin n, a k * b k) (Ideal.ofBits .f32 0x41800000#32) := by
  -- the quotient by the real 16 is the product with 1/16, which then enters the sum term by term
  rw [ofBits_sixteenth, ofBits_sixteen, Ideal.div_coe (by norm_num : (16 : ℝ) ≠ 0), EReal.mul_comm,
    coe_mul_sum _ _ (by norm_num)]
  refine Finset.sum_congr rfl fun k _ => ?_
  rw [EReal.mul_comm (a k), mul_assoc]

/-! ## Half the negated distance -/

theorem negHalf_mul (d : EReal) :
    Ideal.ofBits .f32 0xBF000000#32 * d = Ideal.div (-d) (Ideal.ofBits .f32 0x40000000#32) := by
  -- both sides are -(½ · d): the negation of an extended real moves freely across a product
  rw [ofBits_negHalf, ofBits_two, Ideal.div_coe (by norm_num : (2 : ℝ) ≠ 0), EReal.coe_neg, neg_mul, neg_mul,
    EReal.mul_comm]

/-! ## Shifting by the maximum twice -/

/-- The same with `-∞` spelled as the bottom of the extended reals. -/
theorem shift_twice_bot {n : ℕ} (x : Fin n → EReal) (j : Fin n) :
    (x j - (Finset.univ : Finset (Fin n)).fold max (⊥ : EReal) x)
        - max (⊥ : EReal)
            ((Finset.univ : Finset (Fin n)).fold max (⊥ : EReal)
              (fun j' => x j' - (Finset.univ : Finset (Fin n)).fold max (⊥ : EReal) x))
      = x j - (Finset.univ : Finset (Fin n)).fold max (⊥ : EReal) x := by
  rw [max_eq_right bot_le]
  -- every entry is at most the maximum
  have hle : ∀ j' : Fin n, x j' ≤ (Finset.univ : Finset (Fin n)).fold max (⊥ : EReal) x := fun j' =>
    (Finset.le_fold_max _).mpr (Or.inr ⟨j', Finset.mem_univ _, le_rfl⟩)
  -- a real maximum is attained
  have hatt : ∀ r : ℝ, (Finset.univ : Finset (Fin n)).fold max (⊥ : EReal) x = (r : EReal) →
      ∃ j₀ : Fin n, x j₀ = (r : EReal) := by
    intro r hr
    have h : (r : EReal) ≤ (Finset.univ : Finset (Fin n)).fold max (⊥ : EReal) x := hr.ge
    rcases (Finset.le_fold_max _).mp h with h | ⟨j₀, -, h⟩
    · exact absurd h (by simp)
    · exact ⟨j₀, le_antisymm (hr ▸ hle j₀) h⟩
  generalize hM : (Finset.univ : Finset (Fin n)).fold max (⊥ : EReal) x = M at hle hatt ⊢
  induction M using EReal.rec with
  | bot =>
    -- every entry is -∞, and -∞ − (-∞) = -∞ absorbs the second shift
    have hx : x j = ⊥ := le_bot_iff.mp (hle j)
    rw [hx, EReal.bot_sub, EReal.bot_sub]
  | top =>
    -- anything − ∞ is -∞, which absorbs the second shift
    rw [EReal.sub_top, EReal.bot_sub]
  | coe r =>
    -- the shifted row is nonpositive and vanishes where the maximum is attained: its maximum is 0
    obtain ⟨j₀, hj₀⟩ := hatt r rfl
    have hN : (Finset.univ : Finset (Fin n)).fold max (⊥ : EReal) (fun j' => x j' - (r : EReal)) = 0 := by
      apply le_antisymm
      · exact (Finset.fold_max_le _).mpr ⟨bot_le, fun j' _ => EReal.sub_nonpos.mpr (hle j')⟩
      · refine (Finset.le_fold_max _).mpr (Or.inr ⟨j₀, Finset.mem_univ _, ?_⟩)
        rw [hj₀, EReal.sub_self (EReal.coe_ne_top r) (EReal.coe_ne_bot r)]
    rw [hN, sub_zero]

/-- With `y = x − max x` (the maximum folded from `-∞`), a further shift of `y` by `max(-∞, max y)` changes nothing. -/
theorem shift_twice {n : ℕ} (x : Fin n → EReal) (j : Fin n) :
    (x j - (Finset.univ : Finset (Fin n)).fold max (Ideal.ofBits .f32 0xFF800000#32) x)
        - max (Ideal.ofBits .f32 0xFF800000#32)
            ((Finset.univ : Finset (Fin n)).fold max (Ideal.ofBits .f32 0xFF800000#32)
              (fun j' => x j' - (Finset.univ : Finset (Fin n)).fold max (Ideal.ofBits .f32 0xFF800000#32) x))
      = x j - (Finset.univ : Finset (Fin n)).fold max (Ideal.ofBits .f32 0xFF800000#32) x := by
  rw [ofBits_negInf]
  exact shift_twice_bot x j

end Cert.AttnLaws

end
-- ==== Proof.RefValue.lean ====
/-
  The reference's two results are the specification's arrays of its own projected arrays.

  Read one operation at a time, the reference's logit of row `i` against key `j` is
  `((Σ_k Q i k · K j k)/16 + exp((−max(sq i + sq j − 2·Σ_k P i k · P j k, 0))/2)) + Σ_k X i k · X j k) + tanh(f i − f j)`;
  it is shifted by its row maximum, then once more inside the softmax by `max(−∞, the shifted row's maximum)`,
  exponentiated and divided by the row sum, and the update is the product of the weights with the value rows.
  Against the specification this differs by: the scale 1/16 taken out of the inner product, the two middle terms of the
  logit in the other order, `(−d)/2` for `(−½)·d`, and the second shift — each an identity of the extended reals.
  The projected arrays themselves (queries, keys, values, normalised expressions, the spatial feature, the squared
  position norms) are left as the stages that compute them.
-/
import proofs.«120327_j83880711291224_2_alg».proof.Proof.Gen.ReferenceIdeal.Read
import proofs.«120327_j83880711291224_2_alg».proof.Proof.Spec
import proofs.«120327_j83880711291224_2_alg».proof.Proof.Laws
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Indices from their coordinates -/

/-- Two rank-1 indices with the same coordinate are equal. -/
theorem idx1_ext {n : Nat} (u v : (⟨1, ![n]⟩ : Shape).Idx) (h0 : (u 0).val = (v 0).val) : u = v :=
  funext fun a => Fin.ext (by match a with | ⟨0, _⟩ => exact h0)

/-- Two rank-2 indices with the same two coordinates are equal. -/
theorem idx2_ext {n0 n1 : Nat} (u v : (⟨2, ![n0, n1]⟩ : Shape).Idx) (h0 : (u 0).val = (v 0).val)
    (h1 : (u 1).val = (v 1).val) : u = v :=
  funext fun a => Fin.ext (by match a with | ⟨0, _⟩ => exact h0 | ⟨1, _⟩ => exact h1)

/-! ## The logit, as an identity of the extended reals

The reference's arrangement of one logit against the specification's: the scale 1/16 divides the whole inner product
instead of multiplying each query feature, the Gaussian weight is added before the cosine term instead of after it,
the exponent is `(−d)/2` instead of `(−½)·d`, and the row's squared norm arrives as one number `sqi` that is the
sum of the squares of the row's two coordinates. -/

theorem logitRow_ref (q : Fin 256 → EReal) (xr : Fin 512 → EReal) (a : Fin 2 → EReal) (fr : EReal)
    (Kk : Fin 4096 → Fin 256 → EReal) (Xk : Fin 4096 → Fin 512 → EReal) (p0 p1 sqk fk : Fin 4096 → EReal)
    (sqi : EReal) (hsq : sqi = ∑ k : Fin 2, a k * a k) (j : Fin 4096) :
    ((Ideal.div (∑ k : Fin 256, q k * Kk j k) (Ideal.ofBits .f32 0x41800000#32)
          + Ideal.exp (Ideal.div
              (-(max ((sqi + sqk j) - Ideal.ofBits .f32 0x40000000#32 * (a 0 * p0 j + a 1 * p1 j))
                  (Ideal.ofBits .f32 0x00000000#32)))
              (Ideal.ofBits .f32 0x40000000#32)))
        + ∑ k : Fin 512, xr k * Xk j k) + Ideal.tanh (fr - fk j)
      = Cert.AttnSpec.logitRow q xr a fr Kk Xk p0 p1 sqk fk j := by
  unfold Cert.AttnSpec.logitRow Cert.AttnSpec.scaledDot Cert.AttnSpec.cosine Cert.AttnSpec.gauss Cert.AttnSpec.sqDist
    Cert.AttnSpec.bias
  rw [Cert.AttnLaws.scaled_sum, Cert.AttnLaws.negHalf_mul, ← hsq]
  exact congrArg (fun t => t + Ideal.tanh (fr - fk j)) (add_right_comm _ _ _)

section Entries

variable (x0 : (⟨S4096x512, .f32⟩ : BufTy).Contents (Elt Ideal)) (x1 : (⟨S4096x2, .f32⟩ : BufTy).Contents (Elt Ideal))
  (x2 : (⟨S512x256, .f32⟩ : BufTy).Contents (Elt Ideal)) (x3 : (⟨S256, .f32⟩ : BufTy).Contents (Elt Ideal))
  (x4 : (⟨S512x256, .f32⟩ : BufTy).Contents (Elt Ideal)) (x5 : (⟨S256, .f32⟩ : BufTy).Contents (Elt Ideal))
  (x6 : (⟨S512x256, .f32⟩ : BufTy).Contents (Elt Ideal)) (x7 : (⟨S256, .f32⟩ : BufTy).Contents (Elt Ideal))
  (x8 : (⟨S2x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (x14 : (⟨S256x1, .f32⟩ : BufTy).Contents (Elt Ideal)) (x15 : (⟨S1, .f32⟩ : BufTy).Contents (Elt Ideal))

/-! ## The pairwise bias -/

/-- The spatial feature broadcast along a row: at (i, j) it is row `i`'s. -/
theorem f_row (i j : Fin 4096) :
    val_main_v33 (F := Ideal) x1 x8 x9 x10 x11 x12 x13 x14 x15 (ix2 i j)
      = val_main_v30 (F := Ideal) x1 x8 x9 x10 x11 x12 x13 x14 x15 (ix1 i) := by
  rw [val_main_v33_apply, val_main_v31_apply,
    show idx_main_v31 (idx_main_v33 (ix2 i j)) = ix1 i from idx1_ext _ _ rfl]

/-- The spatial feature broadcast along a column: at (i, j) it is row `j`'s. -/
theorem f_col (i j : Fin 4096) :
    val_main_v34 (F := Ideal) x1 x8 x9 x10 x11 x12 x13 x14 x15 (ix2 i j)
      = val_main_v30 (F := Ideal) x1 x8 x9 x10 x11 x12 x13 x14 x15 (ix1 j) := by
  rw [val_main_v34_apply, val_main_v32_apply,
    show idx_main_v32 (idx_main_v34 (ix2 i j)) = ix1 j from idx1_ext _ _ rfl]

/-- The bias at (i, j) is `tanh (f i − f j)`. -/
theorem bias_entry (i j : Fin 4096) :
    val_main_v36 (F := Ideal) x1 x8 x9 x10 x11 x12 x13 x14 x15 (ix2 i j)
      = Ideal.tanh (val_main_v30 (F := Ideal) x1 x8 x9 x10 x11 x12 x13 x14 x15 (ix1 i)
          - val_main_v30 (F := Ideal) x1 x8 x9 x10 x11 x12 x13 x14 x15 (ix1 j)) := by
  rw [val_main_v36_apply, val_main_v35_apply, f_row, f_col]
  rfl

/-! ## The Gaussian spatial weight -/

/-- The squared norms broadcast along a row: at (i, j) it is row `i`'s. -/
theorem sq_rowb (i j : Fin 4096) :
    val_main_v41 (F := Ideal) x1 (ix2 i j) = val_main_v38 (F := Ideal) x1 (ix1 i) := by
  rw [val_main_v41_apply, val_main_v39_apply,
    show idx_main_v39 (idx_main_v41 (ix2 i j)) = ix1 i from idx1_ext _ _ rfl]

/-- The squared norms broadcast along a column: at (i, j) it is row `j`'s. -/
theorem sq_col (i j : Fin 4096) :
    val_main_v42 (F := Ideal) x1 (ix2 i j) = val_main_v38 (F := Ideal) x1 (ix1 j) := by
  rw [val_main_v42_apply, val_main_v40_apply,
    show idx_main_v40 (idx_main_v42 (ix2 i j)) = ix1 j from idx1_ext _ _ rfl]

/-- A row's squared norm is the sum of the squares of its two coordinates. -/
theorem sq_row (i : Fin 4096) :
    val_main_v38 (F := Ideal) x1 (ix1 i) = ∑ k : Fin 2, x1 (ix2 i k) * x1 (ix2 i k) := by
  rw [val_main_v38_apply, val_main_cst_apply, Ideal.ofBits_def, Ideal.ofBits_zero_f32, zero_add]
  refine Finset.sum_congr rfl fun k _ => ?_
  rw [val_main_v37_apply, show idx_main_v38 (ix1 i) k = ix2 i k from idx2_ext _ _ rfl rfl]
  rfl

/-- The inner product of positions `i` and `j`, its two terms written out. -/
theorem pdot_entry (i j : Fin 4096) :
    val_main_v45 (F := Ideal) x1 (ix2 i j)
      = x1 (ix2 i 0) * x1 (ix2 j 0) + x1 (ix2 i 1) * x1 (ix2 j 1) := by
  rw [val_main_v45_apply, Fin.sum_univ_two]
  simp only [val_main_v44_apply]
  rw [show lidx_main_v45 (ix2 i j) 0 = ix2 i 0 from idx2_ext _ _ rfl rfl,
    show lidx_main_v45 (ix2 i j) 1 = ix2 i 1 from idx2_ext _ _ rfl rfl,
    show idx_main_v44 (ridx_main_v45 (ix2 i j) 0) = ix2 j 0 from idx2_ext _ _ rfl rfl,
    show idx_main_v44 (ridx_main_v45 (ix2 i j) 1) = ix2 j 1 from idx2_ext _ _ rfl rfl]

/-- The clamped squared distance between positions `i` and `j`. -/
theorem sqdist_entry (i j : Fin 4096) :
    val_main_v50 (F := Ideal) x1 (ix2 i j)
      = max ((val_main_v38 (F := Ideal) x1 (ix1 i) + val_main_v38 (F := Ideal) x1 (ix1 j))
            - Ideal.ofBits .f32 0x40000000#32 * (x1 (ix2 i 0) * x1 (ix2 j 0) + x1 (ix2 i 1) * x1 (ix2 j 1)))
          (Ideal.ofBits .f32 0x00000000#32) := by
  rw [val_main_v50_apply, val_main_v48_apply, val_main_v43_apply, val_main_v47_apply, sq_rowb, sq_col, pdot_entry,
    val_main_v46_apply, val_main_cst_0_apply, val_main_v49_apply, val_main_cst_1_apply]
  rfl

/-- The Gaussian weight at (i, j): `exp` of minus the clamped squared distance, divided by two. -/
theorem gauss_entry (i j : Fin 4096) :
    val_main_v54 (F := Ideal) x1 (ix2 i j)
      = Ideal.exp (Ideal.div
          (-(max ((val_main_v38 (F := Ideal) x1 (ix1 i) + val_main_v38 (F := Ideal) x1 (ix1 j))
                - Ideal.ofBits .f32 0x40000000#32 * (x1 (ix2 i 0) * x1 (ix2 j 0) + x1 (ix2 i 1) * x1 (ix2 j 1)))
              (Ideal.ofBits .f32 0x00000000#32)))
          (Ideal.ofBits .f32 0x40000000#32)) := by
  rw [val_main_v54_apply, val_main_v53_apply, val_main_v51_apply, sqdist_entry, val_main_v52_apply,
    val_main_cst_2_apply]
  rfl

/-! ## The two inner products -/

/-- The cosine term at (i, j): the inner product of the normalised expression rows `i` and `j`. -/
theorem cos_entry (i j : Fin 4096) :
    val_main_v61 (F := Ideal) x0 (ix2 i j)
      = ∑ k : Fin 512, val_main_v59 (F := Ideal) x0 (ix2 i k) * val_main_v59 (F := Ideal) x0 (ix2 j k) := by
  rw [val_main_v61_apply]
  refine Finset.sum_congr rfl fun k _ => ?_
  rw [val_main_v60_apply, show lidx_main_v61 (ix2 i j) k = ix2 i k from idx2_ext _ _ rfl rfl,
    show idx_main_v60 (ridx_main_v61 (ix2 i j) k) = ix2 j k from idx2_ext _ _ rfl rfl]

/-- The query–key inner product at (i, j), before the scale. -/
theorem qk_entry (i j : Fin 4096) :
    val_main_v63 (F := Ideal) x0 x2 x3 x4 x5 (ix2 i j)
      = ∑ k : Fin 256, val_main_v3 (F := Ideal) x0 x2 x3 (ix2 i k) * val_main_v7 (F := Ideal) x0 x4 x5 (ix2 j k) := by
  rw [val_main_v63_apply]
  refine Finset.sum_congr rfl fun k _ => ?_
  rw [val_main_v62_apply, show lidx_main_v63 (ix2 i j) k = ix2 i k from idx2_ext _ _ rfl rfl,
    show idx_main_v62 (ridx_main_v63 (ix2 i j) k) = ix2 j k from idx2_ext _ _ rfl rfl]

/-- The query–key inner product at (i, j), divided by sixteen. -/
theorem scaled_entry (i j : Fin 4096) :
    val_main_v65 (F := Ideal) x0 x2 x3 x4 x5 (ix2 i j)
      = Ideal.div
          (∑ k : Fin 256, val_main_v3 (F := Ideal) x0 x2 x3 (ix2 i k) * val_main_v7 (F := Ideal) x0 x4 x5 (ix2 j k))
          (Ideal.ofBits .f32 0x41800000#32) := by
  rw [val_main_v65_apply, qk_entry, val_main_v64_apply, val_main_cst_4_apply]
  rfl

/-! ## The logits -/

/-- Row `i`'s logits of the specification, taken of the reference's own projected arrays. -/
abbrev refLogits (i : Fin 4096) : Fin 4096 → EReal :=
  Cert.AttnSpec.logits (val_main_v3 (F := Ideal) x0 x2 x3) (val_main_v7 (F := Ideal) x0 x4 x5)
    (val_main_v59 (F := Ideal) x0) x1 (val_main_v30 (F := Ideal) x1 x8 x9 x10 x11 x12 x13 x14 x15)
    (val_main_v38 (F := Ideal) x1) i

/-- The reference's logit at (i, j) is the specification's. -/
theorem logit_entry (i j : Fin 4096) :
    val_main_v68 (F := Ideal) x0 x1 x2 x3 x4 x5 x8 x9 x10 x11 x12 x13 x14 x15 (ix2 i j)
      = refLogits x0 x1 x2 x3 x4 x5 x8 x9 x10 x11 x12 x13 x14 x15 i j := by
  rw [val_main_v68_apply, val_main_v67_apply, val_main_v66_apply, scaled_entry, gauss_entry, cos_entry, bias_entry]
  unfold refLogits Cert.AttnSpec.logits
  exact logitRow_ref (fun k => val_main_v3 (F := Ideal) x0 x2 x3 (ix2 i k))
    (fun k => val_main_v59 (F := Ideal) x0 (ix2 i k)) (fun k => x1 (ix2 i k))
    (val_main_v30 (F := Ideal) x1 x8 x9 x10 x11 x12 x13 x14 x15 (ix1 i))
    (fun j k => val_main_v7 (F := Ideal) x0 x4 x5 (ix2 j k)) (fun j k => val_main_v59 (F := Ideal) x0 (ix2 j k))
    (fun j => x1 (ix2 j 0)) (fun j => x1 (ix2 j 1)) (fun j => val_main_v38 (F := Ideal) x1 (ix1 j))
    (fun j => val_main_v30 (F := Ideal) x1 x8 x9 x10 x11 x12 x13 x14 x15 (ix1 j))
    (val_main_v38 (F := Ideal) x1 (ix1 i)) (sq_row x1 i) j

/-! ## The row maximum

A maximum over the keys of a [4096, 4096] array is, at row `i`, the fold of `max` from `−∞` over that row. -/

/-- Dropping the key axis of a [4096, 4096] array leaves [4096]. -/
theorem red_rows : S4096x4096.Reduces [1] S4096 := by decide

/-- Row `i` with key `k` put back is (i, k). -/
theorem lift_rows (i : Fin 4096) (k : Fin (S4096x4096.size 1)) :
    red_rows.lift (ix1 i) k = ix2 i (⟨k.val, k.isLt⟩ : Fin 4096) := by
  funext c; apply Fin.ext
  fin_cases c <;> rfl

/-- A maximum over the keys, from `−∞`, of an array whose row `i` is `L`: the fold of `max` over `L`. -/
theorem rowmax_of_row (y : S4096x4096.Idx → Ideal .f32) (init : S_.Idx → Ideal .f32)
    (h' : S4096x4096.ReducesTo [1] S4096) (hu : 0 < S_.numel)
    (hinit : init (Shape.Idx.first hu) = Ideal.ofBits .f32 0xFF800000#32)
    (i : Fin 4096) (L : Fin 4096 → EReal) (hL : ∀ j : Fin 4096, y (ix2 i j) = L j) :
    Host.reduce (FloatOps.maximumf (F := Ideal) (φ := .f32)) y init h' hu (ix1 i) = Cert.AttnSpec.rowMax L := by
  rw [Host.reduce_eq_fold_single (FloatOps.maximumf (F := Ideal) (φ := .f32)) y init h' red_rows hu (ix1 i), hinit]
  have hf : (y ∘ red_rows.lift (ix1 i)) = fun k : Fin 4096 => L k :=
    funext fun k => (congrArg y (lift_rows i k)).trans (hL ⟨k.val, k.isLt⟩)
  unfold Cert.AttnSpec.rowMax
  exact congrArg (fun g => Finset.fold max (Ideal.ofBits .f32 0xFF800000#32) g (Finset.univ : Finset (Fin 4096))) hf

/-- The maximum of row `i` of the logits. -/
theorem rowmax_entry (i : Fin 4096) :
    val_main_v69 (F := Ideal) x0 x1 x2 x3 x4 x5 x8 x9 x10 x11 x12 x13 x14 x15 (ix1 i)
      = Cert.AttnSpec.rowMax (refLogits x0 x1 x2 x3 x4 x5 x8 x9 x10 x11 x12 x13 x14 x15 i) := by
  unfold val_main_v69
  exact rowmax_of_row _ _ _ _ (val_main_cst_5_apply _) i _
    (fun j => logit_entry x0 x1 x2 x3 x4 x5 x8 x9 x10 x11 x12 x13 x14 x15 i j)

/-! ## The softmax -/

/-- The logits shifted by their row maximum. -/
theorem shifted_entry (i j : Fin 4096) :
    val_main_v72 (F := Ideal) x0 x1 x2 x3 x4 x5 x8 x9 x10 x11 x12 x13 x14 x15 (ix2 i j)
      = refLogits x0 x1 x2 x3 x4 x5 x8 x9 x10 x11 x12 x13 x14 x15 i j
        - Cert.AttnSpec.rowMax (refLogits x0 x1 x2 x3 x4 x5 x8 x9 x10 x11 x12 x13 x14 x15 i) := by
  rw [val_main_v72_apply, val_main_v71_apply, val_main_v70_apply,
    show idx_main_v70 (idx_main_v71 (ix2 i j)) = ix1 i from idx1_ext _ _ rfl, logit_entry, rowmax_entry]
  rfl

/-- The maximum of row `i` of the shifted logits. -/
theorem rowmax2_entry (i : Fin 4096) :
    val_main_v73 (F := Ideal) x0 x1 x2 x3 x4 x5 x8 x9 x10 x11 x12 x13 x14 x15 (ix1 i)
      = Cert.AttnSpec.rowMax (fun j' => refLogits x0 x1 x2 x3 x4 x5 x8 x9 x10 x11 x12 x13 x14 x15 i j'
          - Cert.AttnSpec.rowMax (refLogits x0 x1 x2 x3 x4 x5 x8 x9 x10 x11 x12 x13 x14 x15 i)) := by
  unfold val_main_v73
  exact rowmax_of_row _ _ _ _ (val_main_cst_6_apply _) i _
    (fun j => shifted_entry x0 x1 x2 x3 x4 x5 x8 x9 x10 x11 x12 x13 x14 x15 i j)

/-- The softmax's own shift: `max(−∞, the shifted row's maximum)`. -/
theorem shift2_entry (i : Fin 4096) :
    val_main_v75 (F := Ideal) x0 x1 x2 x3 x4 x5 x8 x9 x10 x11 x12 x13 x14 x15 (ix1 i)
      = max (Ideal.ofBits .f32 0xFF800000#32)
          (Cert.AttnSpec.rowMax (fun j' => refLogits x0 x1 x2 x3 x4 x5 x8 x9 x10 x11 x12 x13 x14 x15 i j'
            - Cert.AttnSpec.rowMax (refLogits x0 x1 x2 x3 x4 x5 x8 x9 x10 x11 x12 x13 x14 x15 i))) := by
  rw [val_main_v75_apply, val_main_v74_apply, val_main_cst_7_apply, rowmax2_entry]
  rfl

/-- Shifted twice, the logit is the logit shifted once. -/
theorem shifted2_entry (i j : Fin 4096) :
    val_main_v78 (F := Ideal) x0 x1 x2 x3 x4 x5 x8 x9 x10 x11 x12 x13 x14 x15 (ix2 i j)
      = refLogits x0 x1 x2 x3 x4 x5 x8 x9 x10 x11 x12 x13 x14 x15 i j
        - Cert.AttnSpec.rowMax (refLogits x0 x1 x2 x3 x4 x5 x8 x9 x10 x11 x12 x13 x14 x15 i) := by
  rw [val_main_v78_apply, shifted_entry, val_main_v77_apply, val_main_v76_apply,
    show idx_main_v76 (idx_main_v77 (ix2 i j)) = ix1 i from idx1_ext _ _ rfl, shift2_entry]
  unfold Cert.AttnSpec.rowMax
  exact Cert.AttnLaws.shift_twice (refLogits x0 x1 x2 x3 x4 x5 x8 x9 x10 x11 x12 x13 x14 x15 i) j

/-- The exponential of the shifted logit. -/
theorem exp_entry (i j : Fin 4096) :
    val_main_v79 (F := Ideal) x0 x1 x2 x3 x4 x5 x8 x9 x10 x11 x12 x13 x14 x15 (ix2 i j)
      = Cert.AttnSpec.expRow (refLogits x0 x1 x2 x3 x4 x5 x8 x9 x10 x11 x12 x13 x14 x15 i) j := by
  rw [val_main_v79_apply, shifted2_entry]
  rfl

/-- The sum of row `i` of the exponentials. -/
theorem rowsum_entry (i : Fin 4096) :
    val_main_v80 (F := Ideal) x0 x1 x2 x3 x4 x5 x8 x9 x10 x11 x12 x13 x14 x15 (ix1 i)
      = ∑ j' : Fin 4096, Cert.AttnSpec.expRow (refLogits x0 x1 x2 x3 x4 x5 x8 x9 x10 x11 x12 x13 x14 x15 i) j' := by
  rw [val_main_v80_apply, val_main_cst_8_apply, Ideal.ofBits_def, Ideal.ofBits_zero_f32, zero_add]
  refine Finset.sum_congr rfl fun k _ => ?_
  rw [show idx_main_v80 (ix1 i) k = ix2 i k from idx2_ext _ _ rfl rfl, exp_entry]

/-- The attention weight at (i, j) is the specification's softmax weight. -/
theorem attn_entry (i j : Fin 4096) :
    val_main_v83 (F := Ideal) x0 x1 x2 x3 x4 x5 x8 x9 x10 x11 x12 x13 x14 x15 (ix2 i j)
      = Cert.AttnSpec.softRow (refLogits x0 x1 x2 x3 x4 x5 x8 x9 x10 x11 x12 x13 x14 x15 i) j := by
  rw [val_main_v83_apply, exp_entry, val_main_v82_apply, val_main_v81_apply,
    show idx_main_v81 (idx_main_v82 (ix2 i j)) = ix1 i from idx1_ext _ _ rfl, rowsum_entry]
  rfl

end Entries

/-- The attention weights the reference returns. -/
theorem attn_eq (x0 : (⟨S4096x512, .f32⟩ : BufTy).Contents (Elt Ideal)) (x1 : (⟨S4096x2, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x8 : (⟨S2x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x15 : (⟨S1, .f32⟩ : BufTy).Contents (Elt Ideal)) :
    val_main_v83 (F := Ideal) x0 x1 x2 x3 x4 x5 x8 x9 x10 x11 x12 x13 x14 x15
      = Cert.AttnSpec.attnArr (val_main_v3 (F := Ideal) x0 x2 x3) (val_main_v7 (F := Ideal) x0 x4 x5) (val_main_v59 (F := Ideal) x0) x1
        (val_main_v30 (F := Ideal) x1 x8 x9 x10 x11 x12 x13 x14 x15) (val_main_v38 (F := Ideal) x1) := by
  funext idx
  obtain ⟨i, j, rfl⟩ : ∃ (i j : Fin 4096), idx = ix2 i j := ⟨idx 0, idx 1, eq_ix2 idx⟩
  exact attn_entry x0 x1 x2 x3 x4 x5 x8 x9 x10 x11 x12 x13 x14 x15 i j

/-- The updated expression the reference returns. -/
theorem upd_eq (x0 : (⟨S4096x512, .f32⟩ : BufTy).Contents (Elt Ideal)) (x1 : (⟨S4096x2, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S2x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x15 : (⟨S1, .f32⟩ : BufTy).Contents (Elt Ideal)) :
    val_main_v84 (F := Ideal) x0 x1 x2 x3 x4 x5 x6 x7 x8 x9 x10 x11 x12 x13 x14 x15
      = Cert.AttnSpec.updArr (val_main_v3 (F := Ideal) x0 x2 x3) (val_main_v7 (F := Ideal) x0 x4 x5) (val_main_v59 (F := Ideal) x0) x1
        (val_main_v30 (F := Ideal) x1 x8 x9 x10 x11 x12 x13 x14 x15) (val_main_v38 (F := Ideal) x1)
        (val_main_v11 (F := Ideal) x0 x6 x7) := by
  funext idx
  obtain ⟨i, c, rfl⟩ : ∃ (i : Fin 4096) (c : Fin 256), idx = ix2 i c := ⟨idx 0, idx 1, eq_ix2 idx⟩
  rw [val_main_v84_apply]
  show _ = ∑ k : Fin 4096,
    Cert.AttnSpec.softRow (refLogits x0 x1 x2 x3 x4 x5 x8 x9 x10 x11 x12 x13 x14 x15 i) k
      * val_main_v11 (F := Ideal) x0 x6 x7 (ix2 k c)
  refine Finset.sum_congr rfl fun k _ => ?_
  rw [show lidx_main_v84 (ix2 i c) k = ix2 i k from idx2_ext _ _ rfl rfl,
    show ridx_main_v84 (ix2 i c) k = ix2 k c from idx2_ext _ _ rfl rfl, attn_entry]

end Cert.ReferenceIdeal.RefValue

end
-- ==== Proof.lean ====
/-
  Spatial attention over 4096 nodes: the tiled kernel against the plain reference, at the ideal values.

  Both programs project the expression matrix to queries, keys and values, normalise its rows, push the positions
  through a small network to one spatial feature per node, and form for every pair of nodes the logit
  `q_i·k_j/16 + x̂_i·x̂_j + exp(-½ d²(p_i, p_j)) + tanh(f_i − f_j)`; the attention weights are the row softmax and the
  result their product with the values. The kernel does the pairwise part in sixteen tiles of 256 query rows: it
  folds the scale 1/16 into the query tile, writes the squared distance from the two coordinate rows, shifts by the
  row maximum once, and multiplies the weights by the resident value block. The reference divides the whole inner
  product by 16, adds the four terms in another order, halves the negated distance, and shifts twice (once by hand,
  once inside its softmax). On the extended reals these are the same numbers: a nonnegative real scale distributes
  over any sum, sums reassociate, `(-½)·d = (-d)/2`, and a row already shifted by its maximum is unchanged by
  shifting it by its new maximum (which is zero, or the row is all `-∞`). No finiteness is used: the precondition is
  never opened.

  The three frames are the generated ones (the reference's is its generated run with the results dropped), the
  idealization rewrote nothing, and the two results are equal because each is the specification's array
  (Proof/Spec.lean) of the same projected arrays.
-/
import proofs.«120327_j83880711291224_2_alg».proof.Defs
import proofs.«120327_j83880711291224_2_alg».proof.Proof.Gen.Kernel
import proofs.«120327_j83880711291224_2_alg».proof.Proof.Gen.Kernel.Skeleton
import proofs.«120327_j83880711291224_2_alg».proof.Proof.Gen.Kernel.Launch
import proofs.«120327_j83880711291224_2_alg».proof.Proof.Gen.Kernel.Points
import proofs.«120327_j83880711291224_2_alg».proof.Proof.Gen.Kernel.Frame
import proofs.«120327_j83880711291224_2_alg».proof.Proof.Gen.KernelIdeal
import proofs.«120327_j83880711291224_2_alg».proof.Proof.Gen.KernelIdeal.Skeleton
import proofs.«120327_j83880711291224_2_alg».proof.Proof.Gen.KernelIdeal.Launch
import proofs.«120327_j83880711291224_2_alg».proof.Proof.Gen.KernelIdeal.Points
import proofs.«120327_j83880711291224_2_alg».proof.Proof.Gen.KernelIdeal.Frame
import proofs.«120327_j83880711291224_2_alg».proof.Proof.Gen.ReferenceIdeal
import proofs.«120327_j83880711291224_2_alg».proof.Proof.Gen.Pre_finite_inputs
import proofs.«120327_j83880711291224_2_alg».proof.Proof.Gen.KernelIdeal.Value
import proofs.«120327_j83880711291224_2_alg».proof.Proof.Gen.ReferenceIdeal.Run
import proofs.«120327_j83880711291224_2_alg».proof.Proof.Gen.ReferenceIdeal.Read
import proofs.«120327_j83880711291224_2_alg».proof.Proof.Tiles
import proofs.«120327_j83880711291224_2_alg».proof.Proof.RefValue
import Idealize.ShloMosaic.Adequacy
import Idealize.ShloMosaic.Init

noncomputable section

namespace Cert.Proof

open Idealize.ShloMosaic Idealize.SL.Sem Cert.Kernel

/-- The kernel at the bit level runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 800000 in
/-- The reference's attention weights, from a memory agreeing with the kernel's on the arguments they depend on, are the
    specification's attention array of the kernel's projected arrays. -/
theorem reference_attn (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v83 (F := Ideal) m' c = Cert.KernelIdeal.Tiles.attnOf m c := by
  rw [Cert.ReferenceIdeal.Read.val_main_v83_eq, Cert.ReferenceIdeal.RefValue.attn_eq,
    h0, h1, h2, h3, h4, h5, h8, h9, h10, h11, h12, h13, h14, h15]
  rfl

set_option maxHeartbeats 800000 in
/-- The reference's updated expression likewise. -/
theorem reference_upd (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v84 (F := Ideal) m' c = Cert.KernelIdeal.Tiles.updOf m c := by
  rw [Cert.ReferenceIdeal.Read.val_main_v84_eq, Cert.ReferenceIdeal.RefValue.upd_eq,
    h0, h1, h2, h3, h4, h5, h6, h7, h8, h9, h10, h11, h12, h13, h14, h15]
  rfl

/-- From memories agreeing on the sixteen arguments both programs end with the specification's attention array and
    updated array of the same projected arrays. -/
theorem algebraic : Cert.algebraic_KernelIdeal_ReferenceIdeal := by
  intro m ρ m' ρ' _ hagree
  refine ⟨fun c => Cert.KernelIdeal.Tiles.attnOf m c, fun c => Cert.KernelIdeal.Tiles.updOf m c, ?_, ?_⟩
  · exact (θ_run Cert.KernelIdeal.defs _ _).mono
      (fun r h c => ⟨(h c).1.trans (Cert.KernelIdeal.Tiles.attn_final m c),
        (h c).2.1.trans (Cert.KernelIdeal.Tiles.upd_final m c), (h c).2.2⟩)
      (Cert.KernelIdeal.Value.run_blocks (F := Ideal) m ρ)
  · refine (θ_run Cert.ReferenceIdeal.defs _ _).mono (fun r h c => ?_)
      (Cert.ReferenceIdeal.Value.run (F := Ideal) m' ρ')
    obtain ⟨h0, h1, h2, h3, h4, h5, h6, h7, h8, h9, h10, h11, h12, h13, h14, h15⟩ := hagree c
    exact ⟨(h c).1.trans (reference_attn m m' c h0 h1 h2 h3 h4 h5 h8 h9 h10 h11 h12 h13 h14 h15),
      (h c).2.1.trans (reference_upd m m' c h0 h1 h2 h3 h4 h5 h6 h7 h8 h9 h10 h11 h12 h13 h14 h15), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
